-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1048576x2 : Shape := ⟨3, ![16, 1048576, 2]⟩
abbrev S_ : Shape := ⟨0, ![]⟩

class Facts : Prop where
  bcast_S_S16x1048576x2 : S_.BroadcastsInDim S16x1048576x2 (![] : Fin 0 → Fin S16x1048576x2.rank)
  reducesTo_S16x1048576x2_S_d0_1_2 : S16x1048576x2.ReducesTo [0, 1, 2] S_
  h_S_ : 0 < S_.numel

variable [Facts]

def fn {F : FTy → Type} [FloatOps F] (main_arg0 : FVec F S16x1048576x2 .f32) : IVec S_ 1 :=
  let main_cst : FVec F S_ .f32 := constant S_ .f32 0x42FE0000#32
  let main_v0 : FVec F S16x1048576x2 .f32 := broadcastInDim S16x1048576x2 ![] bcast_S_S16x1048576x2 main_cst
  let main_v1 : FVec F S16x1048576x2 .f32 := mulf main_arg0 main_v0
  let main_v2 : IVec S16x1048576x2 32 := fptosi 32 main_v1
  let main_v3 : FVec F S16x1048576x2 .f32 := Host.absf main_arg0
  let main_cst_0 : FVec F S_ .f32 := constant S_ .f32 0x7F800000#32
  let main_v4 : FVec F S16x1048576x2 .f32 := broadcastInDim S16x1048576x2 ![] bcast_S_S16x1048576x2 main_cst_0
  let main_v5 : IVec S16x1048576x2 1 := cmpf .olt main_v3 main_v4
  let main_c : IVec S_ 1 := constantI S_ 1 1#1
  let main_v6 : IVec S_ 1 := (fun x v => Host.reduce IntOp.andi x v reducesTo_S16x1048576x2_S_d0_1_2 h_S_) main_v5 main_c
  let main_c_1 : IVec S_ 32 := constantI S_ 32 0#32
  let main_v7 : IVec S16x1048576x2 32 := broadcastInDim S16x1048576x2 ![] bcast_S_S16x1048576x2 main_c_1
  let main_v8 : IVec S16x1048576x2 1 := cmpi .sge main_v2 main_v7
  let main_c_2 : IVec S_ 32 := constantI S_ 32 128#32
  let main_v9 : IVec S16x1048576x2 32 := broadcastInDim S16x1048576x2 ![] bcast_S_S16x1048576x2 main_c_2
  let main_v10 : IVec S16x1048576x2 1 := cmpi .slt main_v2 main_v9
  let main_v11 : IVec S16x1048576x2 1 := andi main_v8 main_v10
  let main_c_3 : IVec S_ 1 := constantI S_ 1 1#1
  let main_v12 : IVec S_ 1 := (fun x v => Host.reduce IntOp.andi x v reducesTo_S16x1048576x2_S_d0_1_2 h_S_) main_v11 main_c_3
  let main_v13 : IVec S_ 1 := andi main_v6 main_v12
  main_v13
-- ==== Kernel.lean ====
abbrev S16x1048576x2 : Shape := ⟨3, ![16, 1048576, 2]⟩
abbrev S16x128x128 : Shape := ⟨3, ![16, 128, 128]⟩
abbrev S1x8192x2 : Shape := ⟨3, ![1, 8192, 2]⟩
abbrev S1x128x128 : Shape := ⟨3, ![1, 128, 128]⟩
abbrev S128x128 : Shape := ⟨2, ![128, 128]⟩
abbrev S4096x128 : Shape := ⟨2, ![4096, 128]⟩
abbrev S1x4096x2 : Shape := ⟨3, ![1, 4096, 2]⟩
abbrev S4096x2 : Shape := ⟨2, ![4096, 2]⟩
abbrev S4096x1 : Shape := ⟨2, ![4096, 1]⟩

abbrev nBuf : Space → Nat
  | .hbm => 3
  | .vmem => 7
  | .smem => 0
  | _ => 0

abbrev bufTy : (tb : Table) → Fin (tcTables nBuf tb) → BufTy
  | .hbm, ⟨0, _⟩ => ⟨S16x1048576x2, .f32⟩
  | .hbm, ⟨1, _⟩ => ⟨S16x1048576x2, .i32⟩
  | .hbm, ⟨2, _⟩ => ⟨S16x128x128, .i32⟩
  | .local _ .vmem, ⟨0, _⟩ => ⟨S1x8192x2, .f32⟩
  | .local _ .vmem, ⟨1, _⟩ => ⟨S1x8192x2, .f32⟩
  | .local _ .vmem, ⟨2, _⟩ => ⟨S1x8192x2, .i32⟩
  | .local _ .vmem, ⟨3, _⟩ => ⟨S1x8192x2, .i32⟩
  | .local _ .vmem, ⟨4, _⟩ => ⟨S1x128x128, .i32⟩
  | .local _ .vmem, ⟨5, _⟩ => ⟨S1x128x128, .i32⟩
  | .local _ .vmem, ⟨6, _⟩ => ⟨S128x128, .f32⟩
  | _, _ => ⟨S16x1048576x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 128], ![false, false]⟩

@[reducible] def k0_t1_loop : Scf.Loop 32 :=
  let c0_i32_1 : BitVec 32 := 0#32
  let c2_i32 : BitVec 32 := 2#32
  let v4 : BitVec 32 := Scalar.addi c0_i32_1 c2_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg6 : BitVec 32 := Scf.iv c0_i32_1 c1_i32 k0_t1
  let c4096_i32 : BitVec 32 := 4096#32
  let v8 : BitVec 32 := Scalar.muli arg6 c4096_i32
  v8
def k0_off1 (k0_t1 : Fin k0_t1_loop.trips) : Fin 3 → Nat :=
  let c0 : Index := 0#32
  let c0_i32_1 : BitVec 32 := 0#32
  let c1_i32 : BitVec 32 := 1#32
  let arg6 : BitVec 32 := Scf.iv c0_i32_1 c1_i32 k0_t1
  let c4096_i32 : BitVec 32 := 4096#32
  let v8 : BitVec 32 := Scalar.muli arg6 c4096_i32
  let v9 : BitVec 32 := v8
  let v10 : Index := Scalar.indexCast v9
  let c0_4 : Index := 0#32
  ![0, v10.toNat, 0]
def k0_cond2 (i : grid0.Coords) : BitVec 1 :=
  let arg1 : BitVec 32 := BitVec.ofNat 32 (i 1).val
  let c127_i32 : BitVec 32 := 127#32
  let v5 : BitVec 1 := Scalar.cmpi .eq arg1 c127_i32
  let v6 : BitVec 32 := Scalar.extui v5
  let c0_i32_3 : BitVec 32 := 0#32
  let v7 : BitVec 1 := Scalar.cmpi .ne v6 c0_i32_3
  v7

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S128x128_S128x128_0_0 : ∀ a, (![0, 0] : Fin 2 → Nat) a + S128x128.size a ≤ S128x128.size a
  h_S128x128 : 0 < S128x128.numel
  shapeCasts_S128x128_S128x128 : S128x128.ShapeCasts S128x128
  iota_S4096x128_d1_w32 : S4096x128.Iotas .tc 32 [1]
  h_S1x4096x2 : 0 < S1x4096x2.numel
  shapeCasts_S1x4096x2_S4096x2 : S1x4096x2.ShapeCasts S4096x2
  shapeCasts_S4096x2_S1x4096x2 : S4096x2.ShapeCasts S1x4096x2
  slices_S4096x2_o0_0_S4096x1 : S4096x2.Slices ![0, 0] S4096x1
  slices_S4096x2_o0_1_S4096x1 : S4096x2.Slices ![0, 1] S4096x1
  broadcasts_S4096x1_S4096x128 : S4096x1.Broadcasts S4096x128
  natLt_1_32 : 1 < 32
  bitsLt_bf16_f32 : FTy.bits .bf16 < FTy.bits .f32
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  dot_S4096x128_S4096x128_S128x128_0_0_1_1_n_n_wf : DotDims.WF S4096x128 S4096x128 S128x128 [0] [0] [1] [1] [] []
  hrank0 : 0 < grid0.rank
  k0_t1_ok : k0_t1_loop.OK
  k0_mult1_dvd : ∀ k0_t1 : Fin k0_t1_loop.trips, 4096 ∣ (k0_mult1 k0_t1).toNat
  k0_off1_inb : ∀ k0_t1 : Fin k0_t1_loop.trips, ∀ a, (k0_off1 k0_t1) a + S1x4096x2.size a ≤ S1x8192x2.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x2.size a ≤ S16x1048576x2.size a
  hwx0_0 : ∀ i : grid0.Coords, EltTy.bits .f32 = 32 ∨ (Rect.block (s := S16x1048576x2) S1x8192x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x2.size a ≤ S16x1048576x2.size a
  hwx0_1 : ∀ i : grid0.Coords, EltTy.bits .i32 = 32 ∨ (Rect.block (s := S16x1048576x2) S1x8192x2.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S16x128x128.size a
  hwx0_2 : ∀ i : grid0.Coords, EltTy.bits .i32 = 32 ∨ (Rect.block (s := S16x128x128) S1x128x128.size (cc0_transform_2 i) (hinb0_2 i)).WholeWords (EltTy.packing .i32)

variable [Facts₀]

def dot_S4096x128_S4096x128_S128x128_0_0_1_1_n_n : DotDims S4096x128 S4096x128 S128x128 where
  lhsContracting := [0]
  rhsContracting := [0]
  lhsNonContracting := [1]
  rhsNonContracting := [1]
  lhsBatch := []
  rhsBatch := []
  wf := dot_S4096x128_S4096x128_S128x128_0_0_1_1_n_n_wf

abbrev win0_0 : Pipeline.Window sig grid0 :=
  Pipeline.Window.ofSpec (Memref.whole main_arg0) S1x8192x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x8192x2.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x1048576x2 : Shape := ⟨3, ![16, 1048576, 2]⟩
abbrev S_ : Shape := ⟨0, ![]⟩
abbrev S16x1048576x1 : Shape := ⟨3, ![16, 1048576, 1]⟩
abbrev S16x1048576 : Shape := ⟨2, ![16, 1048576]⟩
abbrev S16777216 : Shape := ⟨1, ![16777216]⟩
abbrev S16 : Shape := ⟨1, ![16]⟩
abbrev S262144 : Shape := ⟨1, ![262144]⟩
abbrev S16777216x1 : Shape := ⟨2, ![16777216, 1]⟩
abbrev S16x128x128 : Shape := ⟨3, ![16, 128, 128]⟩

abbrev nBuf : Space → Nat
  | .hbm => 36
  | .vmem => 0
  | .smem => 0
  | _ => 0

abbrev bufTy : (tb : Table) → Fin (tcTables nBuf tb) → BufTy
  | .hbm, ⟨0, _⟩ => ⟨S16x1048576x2, .f32⟩
  | .hbm, ⟨1, _⟩ => ⟨S_, .f32⟩
  | .hbm, ⟨2, _⟩ => ⟨S16x1048576x2, .f32⟩
  | .hbm, ⟨3, _⟩ => ⟨S16x1048576x2, .f32⟩
  | .hbm, ⟨4, _⟩ => ⟨S16x1048576x2, .i32⟩
  | .hbm, ⟨5, _⟩ => ⟨S16x1048576x1, .i32⟩
  | .hbm, ⟨6, _⟩ => ⟨S16x1048576, .i32⟩
  | .hbm, ⟨7, _⟩ => ⟨S16777216, .i32⟩
  | .hbm, ⟨8, _⟩ => ⟨S16x1048576x1, .i32⟩
  | .hbm, ⟨9, _⟩ => ⟨S16x1048576, .i32⟩
  | .hbm, ⟨10, _⟩ => ⟨S16777216, .i32⟩
  | .hbm, ⟨11, _⟩ => ⟨S16, .i32⟩
  | .hbm, ⟨12, _⟩ => ⟨S16x1048576, .i32⟩
  | .hbm, ⟨13, _⟩ => ⟨S16777216, .i32⟩
  | .hbm, ⟨14, _⟩ => ⟨S_, .i32⟩
  | .hbm, ⟨15, _⟩ => ⟨S16777216, .i32⟩
  | .hbm, ⟨16, _⟩ => ⟨S16777216, .i32⟩
  | .hbm, ⟨17, _⟩ => ⟨S16777216, .i32⟩
  | .hbm, ⟨18, _⟩ => ⟨S_, .i32⟩
  | .hbm, ⟨19, _⟩ => ⟨S16777216, .i32⟩
  | .hbm, ⟨20, _⟩ => ⟨S16777216, .i32⟩
  | .hbm, ⟨21, _⟩ => ⟨S16777216, .i32⟩
  | .hbm, ⟨22, _⟩ => ⟨S_, .i32⟩
  | .hbm, ⟨23, _⟩ => ⟨S262144, .i32⟩
  | .hbm, ⟨24, _⟩ => ⟨S_, .i32⟩
  | .hbm, ⟨25, _⟩ => ⟨S16777216, .i32⟩
  | .hbm, ⟨26, _⟩ => ⟨S16777216, .i1⟩
  | .hbm, ⟨27, _⟩ => ⟨S_, .i32⟩
  | .hbm, ⟨28, _⟩ => ⟨S16777216, .i32⟩
  | .hbm, ⟨29, _⟩ => ⟨S16777216, .i32⟩
  | .hbm, ⟨30, _⟩ => ⟨S16777216, .i32⟩
  | .hbm, ⟨31, _⟩ => ⟨S16777216x1, .i32⟩
  | .hbm, ⟨32, _⟩ => ⟨S_, .i32⟩
  | .hbm, ⟨33, _⟩ => ⟨S16777216, .i32⟩
  | .hbm, ⟨34, _⟩ => ⟨S262144, .i32⟩
  | .hbm, ⟨35, _⟩ => ⟨S16x128x128, .i32⟩
  | _, _ => ⟨S16x1048576x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c_1 : Ref sig .tc := ⟨.hbm, 22, rfl⟩
abbrev main_v18 : Ref sig .tc := ⟨.hbm, 23, rfl⟩
abbrev main_c_2 : Ref sig .tc := ⟨.hbm, 24, rfl⟩
abbrev main_v19 : Ref sig .tc := ⟨.hbm, 25, rfl⟩
abbrev main_v20 : Ref sig .tc := ⟨.hbm, 26, rfl⟩
abbrev main_c_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_4 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]

class Facts₀ : Prop where
  bcast_S_S16x1048576x2 : S_.BroadcastsInDim S16x1048576x2 (![] : Fin 0 → Fin S16x1048576x2.rank)
  slices_S16x1048576x2_S16x1048576x1_0_0_0 : S16x1048576x2.Slices ![0, 0, 0] S16x1048576x1
  shapeCasts_S16x1048576x1_S16x1048576 : S16x1048576x1.ShapeCasts S16x1048576
  shapeCasts_S16x1048576_S16777216 : S16x1048576.ShapeCasts S16777216
  slices_S16x1048576x2_S16x1048576x1_0_0_1 : S16x1048576x2.Slices ![0, 0, 1] S16x1048576x1
  bcast_S16_S16x1048576_0 : S16.BroadcastsInDim S16x1048576 (![0] : Fin 1 → Fin S16x1048576.rank)
  bcast_S_S16777216 : S_.BroadcastsInDim S16777216 (![] : Fin 0 → Fin S16777216.rank)
  bcast_S_S262144 : S_.BroadcastsInDim S262144 (![] : Fin 0 → Fin S262144.rank)
  bcast_S16777216_S16777216x1_0 : S16777216.BroadcastsInDim S16777216x1 (![0] : Fin 1 → Fin S16777216x1.rank)
  shapeCasts_S262144_S16x128x128 : S262144.ShapeCasts S16x128x128
  scatter_S262144_S16777216x1_S16777216_n_0_0_1_wf : ScatterDims.WF S262144 S16777216x1 S16777216 [] [0] [0] 1

variable [Facts₀]

def scatter_S262144_S16777216x1_S16777216_n_0_0_1 : ScatterDims S262144 S16777216x1 S16777216 where
  updateWindowDims := []
  insertedWindowDims := [0]
  scatterDimsToOperandDims := [0]
  indexVectorDim := 1
  wf := scatter_S262144_S16777216x1_S16777216_n_0_0_1_wf

class Facts : Prop extends Facts₀ where

variable [Facts]
-- ==== Proof.TripPiecesW.lean ====
/-
  One trip of the body's loop, as the pieces it stores, for the program over machine words.

  Trip k reads points 4096·k, …, 4096·k + 4095 of the tile and the whole running 128 × 128 block;
  it stores the quantized chunk at those points of the tile's output, and stores the whole block
  back with the chunk's counts added.  Each store is read here off the trip's own definition as one
  piece: a rectangle and the value stored through it.
-/
import proofs.«174894_j446676598908_2_alg».proof.Proof.Gen.Kernel.Loops
import Idealize.ShloMosaic.Lib.ValueIdx

noncomputable section

namespace Cert.HistW

open Idealize.ShloMosaic Idealize.ShloMosaic.ValueIdx Idealize.SL.Sem
open Cert.Kernel Cert.Kernel.Gen

variable [Cert.Kernel.Facts]
variable {F : FTy → Type} [FloatOps F]

/-- The trip's piece for the running 128 × 128 block: one store of the whole block, of the block it
    finds there with the trip's chunk of the tile added. -/
theorem trip_scratch_pieces (𝒱 : Variants) (c : Dev nD) (bd : Option 𝒱.V) (i : grid0.Coords) (arg2 : Memref sig .tc .vmem S1x8192x2 .f32) (harg2 : arg2.IsWhole) (arg3 : Memref sig .tc .vmem S1x8192x2 .i32) (harg3 : arg3.IsWhole) (arg4 : Memref sig .tc .vmem S1x128x128 .i32) (harg4 : arg4.IsWhole) (arg5 : Memref sig .tc .vmem S128x128 .f32) (harg5 : arg5.IsWhole) (X : BufTy.Contents (Elt F) arg2.view.ty) (k : Fin k0_t1_loop.trips)
    (f3 : BufTy.Contents (Elt F) arg3.view.ty) (f5 : BufTy.Contents (Elt F) arg5.view.ty) :
    (trip_k0_t1 (F := F) 𝒱 c bd i arg2 harg2 arg3 harg3 arg4 harg4 arg5 harg5 X k).2.1 f3 f5
      = [⟨Rect.unit (s := S128x128) ![0, 0] S128x128.size Facts₀.inb_S128x128_S128x128_0_0,
          k0_pay4 (F := F) (View.readAt (Elt F) arg2.view (Rect.unit (s := S1x8192x2) (k0_off1 k) S1x4096x2.size (Facts₀.k0_off1_inb k)).toLoadRect X)
            (View.readAt (Elt F) arg5.view (Rect.unit (s := S128x128) ![0, 0] S128x128.size Facts₀.inb_S128x128_S128x128_0_0).toLoadRect f5)⟩] := by
  unfold trip_k0_t1
  rfl

/-- The trip's piece for the quantized points: one store, at the trip's 4096 points of the tile, of
    the quantized chunk. -/
theorem trip_out_pieces (𝒱 : Variants) (c : Dev nD) (bd : Option 𝒱.V) (i : grid0.Coords) (arg2 : Memref sig .tc .vmem S1x8192x2 .f32) (harg2 : arg2.IsWhole) (arg3 : Memref sig .tc .vmem S1x8192x2 .i32) (harg3 : arg3.IsWhole) (arg4 : Memref sig .tc .vmem S1x128x128 .i32) (harg4 : arg4.IsWhole) (arg5 : Memref sig .tc .vmem S128x128 .f32) (harg5 : arg5.IsWhole) (X : BufTy.Contents (Elt F) arg2.view.ty) (k : Fin k0_t1_loop.trips)
    (f3 : BufTy.Contents (Elt F) arg3.view.ty) (f5 : BufTy.Contents (Elt F) arg5.view.ty) :
    (trip_k0_t1 (F := F) 𝒱 c bd i arg2 harg2 arg3 harg3 arg4 harg4 arg5 harg5 X k).1 f3 f5
      = [⟨Rect.unit (s := S1x8192x2) (k0_off1 k) S1x4096x2.size (Facts₀.k0_off1_inb k),
          k0_pay3 (F := F) (View.readAt (Elt F) arg2.view (Rect.unit (s := S1x8192x2) (k0_off1 k) S1x4096x2.size (Facts₀.k0_off1_inb k)).toLoadRect X)⟩] := by
  unfold trip_k0_t1
  rfl

end Cert.HistW

end
-- ==== Proof.TripStartW.lean ====
/-
  The pieces a loop leaves do not depend on what the first output's buffer held before the loop (the kernel read at words).

  The body's loop makes two trips; trip k stores the quantized chunk k into the first output's buffer and adds the
  chunk's histogram to the running block. Neither store reads the first output's buffer, so the list of pieces
  the trips before `n` leave is the same whatever that buffer held when the loop began.
-/
import proofs.«174894_j446676598908_2_alg».proof.Proof.TripPiecesW

noncomputable section

namespace Cert.HistW

open Cert.Kernel Cert.Kernel.Gen Idealize.ShloMosaic Idealize.ShloMosaic.TcCoe

variable [Cert.Kernel.Facts] {F : FTy → Type} [FloatOps F]

/-- The pieces of the trips before `n` are the same from any contents `G3`, `G3'` of the first output's buffer. -/
theorem pb_start_irrel (𝒱 : Variants) (c : Dev nD) (bd : Option 𝒱.V) (i : grid0.Coords)
    (arg2 : Memref sig .tc .vmem S1x8192x2 .f32) (harg2 : arg2.IsWhole) (arg3 : Memref sig .tc .vmem S1x8192x2 .i32) (harg3 : arg3.IsWhole)
    (arg4 : Memref sig .tc .vmem S1x128x128 .i32) (harg4 : arg4.IsWhole) (arg5 : Memref sig .tc .vmem S128x128 .f32) (harg5 : arg5.IsWhole)
    (X : BufTy.Contents (Elt F) arg2.view.ty) (G3 G3' : BufTy.Contents (Elt F) arg3.view.ty) (G5 : BufTy.Contents (Elt F) arg5.view.ty) (n : ℕ) :
    pb_k0_t1 (F := F) 𝒱 c bd i arg2 harg2 arg3 harg3 arg4 harg4 arg5 harg5 X G3 G5 n
      = pb_k0_t1 (F := F) 𝒱 c bd i arg2 harg2 arg3 harg3 arg4 harg4 arg5 harg5 X G3' G5 n := by
  induction n with
  | zero => rfl
  | succ n ih =>
    rw [pb_k0_t1.eq_2, pb_k0_t1.eq_2]
    unfold pb_k0_t1Step
    by_cases h : n < k0_t1_loop.trips
    · rw [dif_pos h, dif_pos h, ih]
      simp only [trip_out_pieces, trip_scratch_pieces]
    · rw [dif_neg h, dif_neg h, ih]

end Cert.HistW

end
-- ==== Proof.TripPieces.lean ====
/-
  One trip of the body's loop, as the pieces it stores.

  A tile of 8192 points is visited in two trips of 4096 points.  Trip k reads points 4096·k, …,
  4096·k + 4095 of the tile and the whole running 128 × 128 block; it stores the quantized chunk
  at those points of the tile's output, and stores the whole block back with the chunk's counts
  added.  Each store is read here off the trip's own definition as one piece: a rectangle and the
  value stored through it.  What the two loads read is then spelt at an index.
-/
import proofs.«174894_j446676598908_2_alg».proof.Proof.Gen.KernelIdeal.Loops
import Idealize.ShloMosaic.Lib.ValueIdx

noncomputable section

namespace Cert.Hist

open Idealize.ShloMosaic Idealize.ShloMosaic.ValueIdx Idealize.SL.Sem
open Cert.KernelIdeal Cert.KernelIdeal.Gen

variable [Cert.KernelIdeal.Facts]
variable {F : FTy → Type} [FloatOps F]

/-- The trip's piece for the running 128 × 128 block: one store of the whole block, of the block it
    finds there with the trip's chunk of the tile added. -/
theorem trip_scratch_pieces (𝒱 : Variants) (c : Dev nD) (bd : Option 𝒱.V) (i : grid0.Coords) (arg2 : Memref sig .tc .vmem S1x8192x2 .f32) (harg2 : arg2.IsWhole) (arg3 : Memref sig .tc .vmem S1x8192x2 .i32) (harg3 : arg3.IsWhole) (arg4 : Memref sig .tc .vmem S1x128x128 .i32) (harg4 : arg4.IsWhole) (arg5 : Memref sig .tc .vmem S128x128 .f32) (harg5 : arg5.IsWhole) (X : BufTy.Contents (Elt F) arg2.view.ty) (k : Fin k0_t1_loop.trips)
    (f3 : BufTy.Contents (Elt F) arg3.view.ty) (f5 : BufTy.Contents (Elt F) arg5.view.ty) :
    (trip_k0_t1 (F := F) 𝒱 c bd i arg2 harg2 arg3 harg3 arg4 harg4 arg5 harg5 X k).2.1 f3 f5
      = [⟨Rect.unit (s := S128x128) ![0, 0] S128x128.size Facts₀.inb_S128x128_S128x128_0_0,
          k0_pay4 (F := F) (View.readAt (Elt F) arg2.view (Rect.unit (s := S1x8192x2) (k0_off1 k) S1x4096x2.size (Facts₀.k0_off1_inb k)).toLoadRect X)
            (View.readAt (Elt F) arg5.view (Rect.unit (s := S128x128) ![0, 0] S128x128.size Facts₀.inb_S128x128_S128x128_0_0).toLoadRect f5)⟩] := by
  unfold trip_k0_t1
  rfl

/-- The trip's piece for the quantized points: one store, at the trip's 4096 points of the tile, of
    the quantized chunk. -/
theorem trip_out_pieces (𝒱 : Variants) (c : Dev nD) (bd : Option 𝒱.V) (i : grid0.Coords) (arg2 : Memref sig .tc .vmem S1x8192x2 .f32) (harg2 : arg2.IsWhole) (arg3 : Memref sig .tc .vmem S1x8192x2 .i32) (harg3 : arg3.IsWhole) (arg4 : Memref sig .tc .vmem S1x128x128 .i32) (harg4 : arg4.IsWhole) (arg5 : Memref sig .tc .vmem S128x128 .f32) (harg5 : arg5.IsWhole) (X : BufTy.Contents (Elt F) arg2.view.ty) (k : Fin k0_t1_loop.trips)
    (f3 : BufTy.Contents (Elt F) arg3.view.ty) (f5 : BufTy.Contents (Elt F) arg5.view.ty) :
    (trip_k0_t1 (F := F) 𝒱 c bd i arg2 harg2 arg3 harg3 arg4 harg4 arg5 harg5 X k).1 f3 f5
      = [⟨Rect.unit (s := S1x8192x2) (k0_off1 k) S1x4096x2.size (Facts₀.k0_off1_inb k),
          k0_pay3 (F := F) (View.readAt (Elt F) arg2.view (Rect.unit (s := S1x8192x2) (k0_off1 k) S1x4096x2.size (Facts₀.k0_off1_inb k)).toLoadRect X)⟩] := by
  unfold trip_k0_t1
  rfl

/-- The loop makes two trips. -/
theorem trip_lt_two (k : Fin k0_t1_loop.trips) : k.val < 2 := Nat.lt_of_lt_of_le k.isLt k0_t1_abs.2.1

/-- A middle coordinate of the chunk's shape is below 4096. -/
theorem idx4096_lt1 (y : S1x4096x2.Idx) : (y 1).val < 4096 := (y 1).isLt

/-- What trip k loads of the tile: point r of the load is point 4096·k + r of the tile. -/
theorem loaded_chunk_read (arg2 : Memref sig .tc .vmem S1x8192x2 .f32) (X : BufTy.Contents (Elt F) arg2.view.ty) (k : Fin k0_t1_loop.trips) :
    View.readAt (Elt F) arg2.view (Rect.unit (s := S1x8192x2) (k0_off1 k) S1x4096x2.size (Facts₀.k0_off1_inb k)).toLoadRect X
      = fun y : S1x4096x2.Idx => arg2.view.read (Elt F) X
          (ix3 (0 : Fin 1) ⟨4096 * k.val + (y 1).val, by have := idx4096_lt1 y; have := trip_lt_two k; omega⟩ (y 2)) := by
  funext y
  show arg2.view.read (Elt F) X _ = arg2.view.read (Elt F) X _
  refine congrArg (arg2.view.read (Elt F) X) (funext fun a => Fin.ext ?_)
  have ho := congrFun (k0_off1_eq k)
  match a with
  | ⟨0, _⟩ =>
    show k0_off1 k 0 + 1 * (y 0).val = 0
    have h0 : (y 0).val < 1 := (y 0).isLt
    rw [ho 0]; show 0 + 1 * (y 0).val = 0; omega
  | ⟨1, _⟩ =>
    show k0_off1 k 1 + 1 * (y 1).val = 4096 * k.val + (y 1).val
    rw [ho 1]; show 4096 * k.val + 1 * (y 1).val = _; omega
  | ⟨2, _⟩ =>
    show k0_off1 k 2 + 1 * (y 2).val = (y 2).val
    rw [ho 2]; show 0 + 1 * (y 2).val = _; omega

/-- What a trip loads of the running block: the whole block. -/
theorem loaded_scratch_read (arg5 : Memref sig .tc .vmem S128x128 .f32) (f5 : BufTy.Contents (Elt F) arg5.view.ty) :
    View.readAt (Elt F) arg5.view (Rect.unit (s := S128x128) ![0, 0] S128x128.size Facts₀.inb_S128x128_S128x128_0_0).toLoadRect f5
      = arg5.view.read (Elt F) f5 := by
  funext y
  show arg5.view.read (Elt F) f5 _ = arg5.view.read (Elt F) f5 y
  refine congrArg (arg5.view.read (Elt F) f5) (funext fun a => Fin.ext ?_)
  match a with
  | ⟨0, _⟩ => show 0 + 1 * (y 0).val = (y 0).val; omega
  | ⟨1, _⟩ => show 0 + 1 * (y 1).val = (y 1).val; omega

end Cert.Hist

end
-- ==== Proof.TripStart.lean ====
/-
  The pieces a loop leaves do not depend on what the first output's buffer held before the loop.

  The body's loop makes two trips; trip k stores the quantized chunk k into the first output's buffer and adds the
  chunk's histogram to the running block. Neither store reads the first output's buffer, so the list of pieces
  the trips before `n` leave is the same whatever that buffer held when the loop began.
-/
import proofs.«174894_j446676598908_2_alg».proof.Proof.TripPieces

noncomputable section

namespace Cert.Hist

open Cert.KernelIdeal Cert.KernelIdeal.Gen Idealize.ShloMosaic Idealize.ShloMosaic.TcCoe

variable [Cert.KernelIdeal.Facts] {F : FTy → Type} [FloatOps F]

/-- The pieces of the trips before `n` are the same from any contents `G3`, `G3'` of the first output's buffer. -/
theorem pb_start_irrel (𝒱 : Variants) (c : Dev nD) (bd : Option 𝒱.V) (i : grid0.Coords)
    (arg2 : Memref sig .tc .vmem S1x8192x2 .f32) (harg2 : arg2.IsWhole) (arg3 : Memref sig .tc .vmem S1x8192x2 .i32) (harg3 : arg3.IsWhole)
    (arg4 : Memref sig .tc .vmem S1x128x128 .i32) (harg4 : arg4.IsWhole) (arg5 : Memref sig .tc .vmem S128x128 .f32) (harg5 : arg5.IsWhole)
    (X : BufTy.Contents (Elt F) arg2.view.ty) (G3 G3' : BufTy.Contents (Elt F) arg3.view.ty) (G5 : BufTy.Contents (Elt F) arg5.view.ty) (n : ℕ) :
    pb_k0_t1 (F := F) 𝒱 c bd i arg2 harg2 arg3 harg3 arg4 harg4 arg5 harg5 X G3 G5 n
      = pb_k0_t1 (F := F) 𝒱 c bd i arg2 harg2 arg3 harg3 arg4 harg4 arg5 harg5 X G3' G5 n := by
  induction n with
  | zero => rfl
  | succ n ih =>
    rw [pb_k0_t1.eq_2, pb_k0_t1.eq_2]
    unfold pb_k0_t1Step
    by_cases h : n < k0_t1_loop.trips
    · rw [dif_pos h, dif_pos h, ih]
      simp only [trip_out_pieces, trip_scratch_pieces]
    · rw [dif_neg h, dif_neg h, ih]

end Cert.Hist

end
-- ==== Proof.HistSpec.lean ====
/-
  What both programs compute, as one function of the points' array.

  The input is an array xy of 16 batches of 1048576 points, each with two coordinates.
  A coordinate c quantizes to the 32-bit word of 127·c truncated toward zero (`quant`).
  Point n of batch b falls into cell (h, w) of that batch's 128 × 128 grid when its second
  coordinate quantizes to h and its first to w (`Hit`); `count` is the number of such points and
  `hist` the array of these numbers as 32-bit words.  `InGrid` says that every quantized
  coordinate is a coordinate of the grid, that is, one of 0, …, 127.
-/
import Idealize.ShloMosaic.PureOps.Ideal
import Idealize.ShloMosaic.Lib.ValueIdx

noncomputable section

namespace Cert.Hist

open Idealize.ShloMosaic Idealize.ShloMosaic.ValueIdx

/-- The points: 16 batches of 1048576 points with two coordinates. -/
abbrev SXY : Shape := ⟨3, ![16, 1048576, 2]⟩
/-- The histograms: per batch a 128 × 128 grid. -/
abbrev SVOX : Shape := ⟨3, ![16, 128, 128]⟩

/-- The f32 word of 127, the grid's largest coordinate. -/
abbrev c127 : EReal := Ideal.ofBits .f32 0x42FE0000#32

/-- A coordinate quantized: 127 times it, truncated toward zero, as a 32-bit word. -/
def quant (x : SXY.Idx → EReal) : SXY.Idx → BitVec 32 := fun i => Ideal.fptosi 32 (x i * c127)

/-- Point `n` of batch `b` falls into cell `(h, w)`: its second coordinate quantizes to `h`, its first to `w`. -/
abbrev Hit (q : SXY.Idx → BitVec 32) (b : Fin 16) (h w : Fin 128) (n : Fin 1048576) : Prop :=
  q (ix3 b n (1 : Fin 2)) = BitVec.ofNat 32 h.val ∧ q (ix3 b n (0 : Fin 2)) = BitVec.ofNat 32 w.val

/-- The number of points of batch `b` that fall into cell `(h, w)`. -/
def count (q : SXY.Idx → BitVec 32) (b : Fin 16) (h w : Fin 128) : ℕ :=
  (Finset.univ.filter fun n : Fin 1048576 => Hit q b h w n).card

/-- The histograms as 32-bit words. -/
def hist (q : SXY.Idx → BitVec 32) : SVOX.Idx → BitVec 32 := fun j => BitVec.ofNat 32 (count q (j 0) (j 1) (j 2))

/-- Every quantized coordinate is a coordinate of the 128 × 128 grid. -/
def InGrid (q : SXY.Idx → BitVec 32) : Prop := ∀ i : SXY.Idx, ∃ k : Fin 128, q i = BitVec.ofNat 32 k.val

/-- A batch holds 1048576 points, so no count reaches 2 ^ 31. -/
theorem count_le (q : SXY.Idx → BitVec 32) (b : Fin 16) (h w : Fin 128) : count q b h w ≤ 1048576 := by
  unfold count
  exact (Finset.card_filter_le _ _).trans (by simp)

end Cert.Hist

end
-- ==== Proof.PreGrid.lean ====
/-
  The precondition read back: every quantized coordinate is a coordinate of the grid.

  The precondition is the conjunction of two "for all entries" tests.  Its second conjunct says
  that, at every index, the quantized word q satisfies 0 ≤ q and q < 128 as signed 32-bit numbers.
  A 32-bit word whose signed value lies in [0, 128) is the word of a natural number below 128.
-/
import proofs.«174894_j446676598908_2_alg».proof.Proof.HistSpec
import proofs.«174894_j446676598908_2_alg».proof.Pre_finite_inputs
import Idealize.ShloMosaic.Lib.ReduceAll

noncomputable section

namespace Cert.Hist

open Idealize.ShloMosaic Idealize.ShloMosaic.ValueIdx

/-- A 32-bit word whose signed value lies in [0, 128) is the word of a natural number below 128. -/
theorem word_of_signed_range (v : BitVec 32) (h0 : (0#32 : BitVec 32).toInt ≤ v.toInt)
    (h1 : v.toInt < (128#32 : BitVec 32).toInt) : ∃ k : Fin 128, v = BitVec.ofNat 32 k.val := by
  have e0 : (0#32 : BitVec 32).toInt = 0 := by decide
  have e1 : (128#32 : BitVec 32).toInt = 128 := by decide
  rw [e0] at h0
  rw [e1] at h1
  have hv := v.isLt
  have hlt : v.toNat < 128 := by
    rw [BitVec.toInt_eq_toNat_cond] at h0 h1
    split at h0 <;> omega
  refine ⟨⟨v.toNat, hlt⟩, ?_⟩
  apply BitVec.eq_of_toNat_eq
  rw [BitVec.toNat_ofNat]
  show v.toNat = v.toNat % 2 ^ 32
  omega

instance : Subsingleton Cert.Pre_finite_inputs.S_.Idx := ⟨fun a b => funext fun d => d.elim0⟩

/-- The precondition gives: every quantized coordinate is one of 0, …, 127. -/
theorem inGrid_of_pre [Cert.Pre_finite_inputs.Facts] (x : FVec Ideal Cert.Pre_finite_inputs.S16x1048576x2 .f32)
    (h : Cert.Pre_finite_inputs.fn (F := Ideal) x = fun _ => 1#1) : InGrid (quant x) := by
  have h0 := congrFun h ValueIdx.ix0
  dsimp only [Cert.Pre_finite_inputs.fn] at h0
  have h2 := (IntOp.andi_eq_one.1 h0).2
  intro i
  have hi := Host.reduce_andi_all _ _ _ _ _ h2 i
  have hi' := IntOp.andi_eq_one.1 hi
  obtain ⟨ha, hb⟩ := hi'
  have ha' := IntOp.cmpi_sge.1 ha
  have hb' := IntOp.cmpi_slt.1 hb
  exact word_of_signed_range _ ha' hb'

end Cert.Hist

end
-- ==== Proof.RefWords.lean ====
/-
  The 32-bit word arithmetic of a cell number.

  A point whose coordinates quantize to kx and ky (both below 128) in batch b (below 16) is counted in
  cell kx + 128·ky + 16384·b of the flat array of 262144 cells.  The program computes that number in
  32-bit words.  The sum of the words is the word of the sum (word addition and multiplication are the
  natural numbers' modulo 2 ^ 32); the sum is below 2 ^ 31, so as a signed integer the word is the sum
  itself, it is not negative, and the program's correction of negative numbers leaves it as it is.
-/
import Idealize.ShloMosaic.PureOps.Ideal
import Idealize.ShloMosaic.Lib.ValueIdx
import Mathlib.Tactic

namespace Cert.Hist

open Idealize.ShloMosaic Idealize.ShloMosaic.ValueIdx

/-- Read as a signed integer, the word of a natural number below 2 ^ 31 is that number. -/
theorem toInt_ofNat_small (m : Nat) (hm : m < 2147483648) : (BitVec.ofNat 32 m).toInt = (m : Int) := by
  have h1 : (BitVec.ofNat 32 m).toNat = m := by
    rw [BitVec.toNat_ofNat]; exact Nat.mod_eq_of_lt (by omega)
  rw [BitVec.toInt_eq_toNat_of_lt (by rw [h1]; omega), h1]

/-- The cell number computed in words is the word of the cell number. -/
theorem cell_word (kx ky b' : Nat) :
    IntOp.addi (IntOp.addi (BitVec.ofNat 32 kx) (IntOp.muli 128#32 (BitVec.ofNat 32 ky)))
        (IntOp.muli 16384#32 (BitVec.ofNat 32 b'))
      = BitVec.ofNat 32 (kx + 128 * ky + 16384 * b') := by
  unfold IntOp.addi IntOp.muli
  rw [BitVec.ofNat_add, BitVec.ofNat_add, BitVec.ofNat_mul, BitVec.ofNat_mul]

/-- The word of a number below 2 ^ 31 is not negative, so a select on "it is negative" returns it. -/
theorem not_neg_word (m : Nat) (hm : m < 2147483648) (A : BitVec 32) :
    Scalar.select (IntOp.cmpi .slt (BitVec.ofNat 32 m) 0#32) A (BitVec.ofNat 32 m) = BitVec.ofNat 32 m := by
  have h : (BitVec.ofNat 32 m).slt 0#32 = false := by
    rw [BitVec.slt_eq_decide, toInt_ofNat_small m hm]
    simp
  show Scalar.select (BitVec.ofBool ((BitVec.ofNat 32 m).slt 0#32)) A _ = _
  rw [h]
  exact select_zero _ _

/-- Below 2 ^ 32 two numbers with the same word are equal. -/
theorem ofNat_eq_iff (a b : Nat) (ha : a < 4294967296) (hb : b < 4294967296) :
    BitVec.ofNat 32 a = BitVec.ofNat 32 b ↔ a = b := by
  constructor
  · intro h
    have := congrArg BitVec.toNat h
    rw [BitVec.toNat_ofNat, BitVec.toNat_ofNat, Nat.mod_eq_of_lt (by omega), Nat.mod_eq_of_lt (by omega)] at this
    exact this
  · rintro rfl; rfl

end Cert.Hist
-- ==== Proof.RefCell.lean ====
/-
  The reference's cell number, point by point.

  The reference quantizes every coordinate (its stage 2 is `quant`), then lays the first coordinates, the
  second coordinates and the batch numbers out as three flat arrays of 16 · 1048576 words: position
  b · 1048576 + n holds what belongs to point n of batch b.  From them it computes, in 32-bit words, the
  number x + 128 · y + 16384 · b of the cell the point falls into, adds 262144 where that is negative, and
  turns the result into a column.  Here each of these arrays is read at the position of point n of batch b;
  when the two quantized coordinates of the point are grid coordinates kx and ky, the column there is the
  word of kx + 128 · ky + 16384 · b.
-/
import proofs.«174894_j446676598908_2_alg».proof.Proof.HistSpec
import proofs.«174894_j446676598908_2_alg».proof.Proof.Gen.ReferenceIdeal.Read
import proofs.«174894_j446676598908_2_alg».proof.Proof.RefWords

noncomputable section

namespace Cert.Hist

open Idealize.ShloMosaic Idealize.ShloMosaic.ValueIdx Cert.ReferenceIdeal Cert.ReferenceIdeal.Gen Cert.ReferenceIdeal.Read

/-- The reference's first result is the quantized array: the product with the constant 127 is the extended
    reals' product, and the conversion truncates it. -/
theorem ref_quant (x : FVec Ideal Cert.ReferenceIdeal.S16x1048576x2 .f32) :
    Cert.ReferenceIdeal.Read.val_main_v2 (F := Ideal) x = quant x := by
  funext i
  rw [val_main_v2_apply, val_main_v1_apply, val_main_v0_apply, val_main_cst_apply]
  rfl

/-- The flat position of point `n` of batch `b'`. -/
abbrev flat (b' : Fin 16) (n : Fin 1048576) : Fin 16777216 :=
  ⟨b'.val * 1048576 + n.val, by have := b'.isLt; have := n.isLt; omega⟩

/-- The flat array of first coordinates at the position of point `n` of batch `b'`: the two reshapes take the
    position to (b', n) by quotient and remainder by 1048576, the slice to coordinate 0. -/
theorem xs_at (x : FVec Ideal Cert.ReferenceIdeal.S16x1048576x2 .f32) (b' : Fin 16) (n : Fin 1048576) :
    val_main_v5 (F := Ideal) x (ix1 (flat b' n)) = val_main_v2 (F := Ideal) x (ix3 b' n (0 : Fin 2)) := by
  rw [val_main_v5_apply, val_main_v4_apply, val_main_v3_apply]
  congr 1
  funext a
  have hb := b'.isLt
  have hn := n.isLt
  match a with
  | ⟨0, _⟩ => exact Fin.ext (by dsimp only [idx_main_v3, idx_main_v4, idx_main_v5, ix1, ix3, flat]; omega)
  | ⟨1, _⟩ => exact Fin.ext (by dsimp only [idx_main_v3, idx_main_v4, idx_main_v5, ix1, ix3, flat]; omega)
  | ⟨2, _⟩ => exact Fin.ext (by dsimp only [idx_main_v3, idx_main_v4, idx_main_v5, ix1, ix3, flat]; rfl)

/-- The flat array of second coordinates at the same position: the same reshapes, the slice to coordinate 1. -/
theorem ys_at (x : FVec Ideal Cert.ReferenceIdeal.S16x1048576x2 .f32) (b' : Fin 16) (n : Fin 1048576) :
    val_main_v8 (F := Ideal) x (ix1 (flat b' n)) = val_main_v2 (F := Ideal) x (ix3 b' n (1 : Fin 2)) := by
  rw [val_main_v8_apply, val_main_v7_apply, val_main_v6_apply]
  congr 1
  funext a
  have hb := b'.isLt
  have hn := n.isLt
  match a with
  | ⟨0, _⟩ => exact Fin.ext (by dsimp only [idx_main_v6, idx_main_v7, idx_main_v8, ix1, ix3, flat]; omega)
  | ⟨1, _⟩ => exact Fin.ext (by dsimp only [idx_main_v6, idx_main_v7, idx_main_v8, ix1, ix3, flat]; omega)
  | ⟨2, _⟩ => exact Fin.ext (by dsimp only [idx_main_v6, idx_main_v7, idx_main_v8, ix1, ix3, flat]; rfl)

/-- The flat array of batch numbers at that position is the word of `b'`: the quotient of the position by 1048576. -/
theorem bs_at (b' : Fin 16) (n : Fin 1048576) :
    val_main_v11 (F := Ideal) (ix1 (flat b' n)) = BitVec.ofNat 32 b'.val := by
  rw [val_main_v11_apply, val_main_v10_apply, val_main_v9_apply]
  congr 1
  have hb := b'.isLt
  have hn := n.isLt
  dsimp only [idx_main_v10, idx_main_v11, ix1, flat]
  omega

/-- The column of cell numbers at the position of point `n` of batch `b'`, when the point's quantized coordinates
    are the grid coordinates `kx` and `ky`: the word of kx + 128 · ky + 16384 · b'.  That number is below 262144,
    so nothing wraps and the correction of negative numbers does not apply. -/
theorem cell_at (x : FVec Ideal Cert.ReferenceIdeal.S16x1048576x2 .f32) (b' : Fin 16) (n : Fin 1048576)
    (kx ky : Fin 128) (hx : quant x (ix3 b' n (0 : Fin 2)) = BitVec.ofNat 32 kx.val)
    (hy : quant x (ix3 b' n (1 : Fin 2)) = BitVec.ofNat 32 ky.val) :
    val_main_v24 (F := Ideal) x (ix2 (flat b' n) (0 : Fin 1))
      = BitVec.ofNat 32 (kx.val + 128 * ky.val + 16384 * b'.val) := by
  have hi : idx_main_v24 (ix2 (flat b' n) (0 : Fin 1)) = ix1 (flat b' n) := by
    funext a; match a with | ⟨0, _⟩ => rfl
  have hb := b'.isLt
  have hkx := kx.isLt
  have hky := ky.isLt
  rw [val_main_v24_apply, hi, val_main_v23_apply, val_main_v20_apply, val_main_v22_apply, val_main_v17_apply,
    val_main_v14_apply, val_main_v13_apply, val_main_v16_apply, val_main_v12_apply, val_main_c_apply,
    val_main_v15_apply, val_main_c_0_apply, val_main_v19_apply, val_main_c_2_apply, val_main_v21_apply,
    val_main_c_3_apply, xs_at, ys_at, bs_at, ref_quant, hx, hy, cell_word]
  exact not_neg_word _ (by omega) _

end Cert.Hist

end
-- ==== Proof.LibScatter.lean ====
/-
  An accumulating scatter of rows, read at one index, over the extended reals.

  For an operand `[N, C]`, scatter indices `[R, 1]` and updates `[R, C]` (window axis 1 of the updates, axis 0 of the
  operand inserted, the index a single component naming a row): update element `(e, q)` lands on the operand's row
  `idx[e, 0]`, read as a signed integer and NOT clamped, and column `q`; an update whose row is outside the operand is
  dropped. So entry `(p, q)` of the result is the operand's entry plus the sum of the updates' entries `(e, q)` over
  the `e` whose index word, read signed, is `p`. The same for vectors: operand `[N]`, updates `[R]`.
-/
import Idealize.ShloMosaic.PureOps.Ideal
import Idealize.ShloMosaic.PureOps.Ideal.Laws
import Idealize.ShloMosaic.Lib.ValueIdx

noncomputable section

namespace Cert.LibScatter

open Idealize.ShloMosaic Idealize.ShloMosaic.ValueIdx

/-- The dimension numbers of a scatter of rows: operand `[N, C]`, scatter indices `[R, 1]`, updates `[R, C]`. -/
abbrev rowScatter (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section Rows
variable {N R C w : Nat} (wf : ScatterDims.WF ⟨2, ![N, C]⟩ ⟨2, ![R, 1]⟩ ⟨2, ![R, C]⟩ [1] [0] [0] 1)
  (idx : IVec ⟨2, ![R, 1]⟩ w) (e : Fin R) (q : Fin C)

theorem rows_start0 : (rowScatter N R C wf).start (ix2 e q) idx 0 = (idx (ix2 e 0)).toInt := by
  unfold ScatterDims.start
  rw [dif_pos (show (0 : Fin 2) ∈ (rowScatter N R C wf).scatterDimsToOperandDims from List.mem_singleton.mpr rfl)]
  have hsi : (rowScatter N R C wf).siIdx (ix2 e q) ⟨List.idxOf (0 : Fin 2) (rowScatter N R C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem rows_start1 : (rowScatter N R C wf).start (ix2 e q) idx 1 = 0 := by
  unfold ScatterDims.start
  rw [dif_neg (show (1 : Fin 2) ∉ ([0] : List (Fin 2)) by decide)]

theorem rows_window0 : (rowScatter N R C wf).window (ix2 e q) 0 = 0 := by
  unfold ScatterDims.window
  rw [dif_neg (by simp [ScatterDims.sKept, Shape.kept] : (0 : Fin 2) ∉ (rowScatter N R C wf).sKept)]

theorem rows_window1 : (rowScatter N R C wf).window (ix2 e q) 1 = q.val := by
  unfold ScatterDims.window
  rw [dif_pos (by simp [ScatterDims.sKept, Shape.kept] : (1 : Fin 2) ∈ (rowScatter N R C wf).sKept)]
  rfl

/-- Where update element `(e, q)` lands: on `(p, q')` exactly when the index word of `e`, read signed, is `p` and
    `q = q'`. -/
theorem rows_resultIdx_iff (p : Fin N) (q' : Fin C) :
    (rowScatter N R C wf).resultIdx? (ix2 e q) idx = some (ix2 p q')
      ↔ (idx (ix2 e 0)).toInt = (p.val : Int) ∧ q = q' := by
  unfold ScatterDims.resultIdx?
  split
  · rename_i h
    constructor
    · intro hs
      have hf := Option.some.inj hs
      have h0 : ((rowScatter N R C wf).start (ix2 e q) idx 0 + (rowScatter N R C wf).window (ix2 e q) 0).toNat = p.val :=
        congrArg (fun f : (⟨2, ![N, C]⟩ : Shape).Idx => (f 0).val) hf
      have h1 : ((rowScatter N R C wf).start (ix2 e q) idx 1 + (rowScatter N R C wf).window (ix2 e q) 1).toNat = q'.val :=
        congrArg (fun f : (⟨2, ![N, C]⟩ : Shape).Idx => (f 1).val) hf
      have b0 := (h 0).1
      rw [rows_start0, rows_window0] at h0 b0
      rw [rows_start1, rows_window1] at h1
      refine ⟨by omega, Fin.ext (by omega)⟩
    · rintro ⟨hp, rfl⟩
      refine congrArg some ?_
      funext a
      refine Fin.ext ?_
      match a with
      | ⟨0, _⟩ =>
        show ((rowScatter N R C wf).start (ix2 e q) idx 0 + (rowScatter N R C wf).window (ix2 e q) 0).toNat = p.val
        rw [rows_start0, rows_window0, hp]; omega
      | ⟨1, _⟩ =>
        show ((rowScatter N R C wf).start (ix2 e q) idx 1 + (rowScatter N R C wf).window (ix2 e q) 1).toNat = q.val
        rw [rows_start1, rows_window1]; omega
  · rename_i h
    constructor
    · intro hs; exact absurd hs (by simp)
    · rintro ⟨hp, rfl⟩
      exfalso
      apply h
      intro a
      match a with
      | ⟨0, _⟩ =>
        show 0 ≤ (rowScatter N R C wf).start (ix2 e q) idx 0 + (rowScatter N R C wf).window (ix2 e q) 0
          ∧ (rowScatter N R C wf).start (ix2 e q) idx 0 + (rowScatter N R C wf).window (ix2 e q) 0 < (N : Int)
        rw [rows_start0, rows_window0, hp]
        have := p.isLt
        constructor <;> omega
      | ⟨1, _⟩ =>
        show 0 ≤ (rowScatter N R C wf).start (ix2 e q) idx 1 + (rowScatter N R C wf).window (ix2 e q) 1
          ∧ (rowScatter N R C wf).start (ix2 e q) idx 1 + (rowScatter N R C wf).window (ix2 e q) 1 < (C : Int)
        rw [rows_start1, rows_window1]
        have := q.isLt
        constructor <;> omega

end Rows

/-- The accumulating scatter of rows read at `(p, q)`: the operand there plus the sum, over the `e` whose index word
    read signed is `p`, of the updates at `(e, q)`. -/
theorem scatterAdd_rows_apply {N R C w : Nat} {φ : FTy}
    (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (upd : FVec Ideal ⟨2, ![R, C]⟩ φ)
    (p : Fin N) (q : Fin C) :
    Host.scatterAdd (rowScatter N R C wf) x idx upd (ix2 p q)
      = x (ix2 p q) + ∑ e ∈ Finset.univ.filter (fun e : Fin R => (idx (ix2 e 0)).toInt = (p.val : Int)),
          upd (ix2 e q) := by
  show x (ix2 p q) + ∑ j ∈ Finset.univ.filter
      (fun j => (rowScatter N R C wf).resultIdx? j idx = some (ix2 p q)), upd j = _
  refine congrArg (x (ix2 p q) + ·) ?_
  refine Finset.sum_bij' (fun j _ => (show Fin R from j 0)) (fun e _ => ix2 e q) ?_ ?_ ?_ ?_ ?_
  · intro j hj
    obtain ⟨e, q', rfl⟩ : ∃ (e : Fin R) (q' : Fin C), j = ix2 e q' := ⟨j 0, j 1, eq_ix2 j⟩
    have hj2 := (Finset.mem_filter.mp hj).2
    rw [rows_resultIdx_iff] at hj2
    exact Finset.mem_filter.mpr ⟨Finset.mem_univ _, hj2.1⟩
  · intro e he
    have he2 := (Finset.mem_filter.mp he).2
    exact Finset.mem_filter.mpr ⟨Finset.mem_univ _, (rows_resultIdx_iff wf idx e q p q).mpr ⟨he2, rfl⟩⟩
  · intro j hj
    obtain ⟨e, q', rfl⟩ : ∃ (e : Fin R) (q' : Fin C), j = ix2 e q' := ⟨j 0, j 1, eq_ix2 j⟩
    have hj2 := (Finset.mem_filter.mp hj).2
    rw [rows_resultIdx_iff] at hj2
    show ix2 e q = ix2 e q'
    rw [hj2.2]
  · intro e _; rfl
  · intro j hj
    obtain ⟨e, q', rfl⟩ : ∃ (e : Fin R) (q' : Fin C), j = ix2 e q' := ⟨j 0, j 1, eq_ix2 j⟩
    have hj2 := (Finset.mem_filter.mp hj).2
    rw [rows_resultIdx_iff] at hj2
    show upd (ix2 e q') = upd (ix2 e q)
    rw [hj2.2]

/-! ## The same for vectors

Operand `[N]`, scatter indices `[R, 1]`, updates `[R]`: update element `e` lands on position `idx[e, 0]` read signed. -/

/-- The dimension numbers of an accumulating scatter into a vector. -/
abbrev vecScatter (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section Vec
variable {N R w : Nat} (wf : ScatterDims.WF ⟨1, ![N]⟩ ⟨2, ![R, 1]⟩ ⟨1, ![R]⟩ [] [0] [0] 1)
  (idx : IVec ⟨2, ![R, 1]⟩ w) (e : Fin R)

theorem vec_start0 : (vecScatter N R wf).start (ix1 e) idx 0 = (idx (ix2 e 0)).toInt := by
  unfold ScatterDims.start
  rw [dif_pos (show (0 : Fin 1) ∈ (vecScatter N R wf).scatterDimsToOperandDims from List.mem_singleton.mpr rfl)]
  have hsi : (vecScatter N R wf).siIdx (ix1 e) ⟨List.idxOf (0 : Fin 1) (vecScatter N R wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem vec_window0 : (vecScatter N R wf).window (ix1 e) 0 = 0 := by
  unfold ScatterDims.window
  rw [dif_neg (by simp [ScatterDims.sKept, Shape.kept] : (0 : Fin 1) ∉ (vecScatter N R wf).sKept)]

/-- Where update element `e` lands: on `p` exactly when its index word, read signed, is `p`. -/
theorem vec_resultIdx_iff (p : Fin N) :
    (vecScatter N R wf).resultIdx? (ix1 e) idx = some (ix1 p) ↔ (idx (ix2 e 0)).toInt = (p.val : Int) := by
  unfold ScatterDims.resultIdx?
  split
  · rename_i h
    constructor
    · intro hs
      have hf := Option.some.inj hs
      have h0 : ((vecScatter N R wf).start (ix1 e) idx 0 + (vecScatter N R wf).window (ix1 e) 0).toNat = p.val :=
        congrArg (fun f : (⟨1, ![N]⟩ : Shape).Idx => (f 0).val) hf
      have b0 := (h 0).1
      rw [vec_start0, vec_window0] at h0 b0
      omega
    · intro hp
      refine congrArg some ?_
      funext a
      refine Fin.ext ?_
      match a with
      | ⟨0, _⟩ =>
        show ((vecScatter N R wf).start (ix1 e) idx 0 + (vecScatter N R wf).window (ix1 e) 0).toNat = p.val
        rw [vec_start0, vec_window0, hp]; omega
  · rename_i h
    constructor
    · intro hs; exact absurd hs (by simp)
    · intro hp
      exfalso
      apply h
      intro a
      match a with
      | ⟨0, _⟩ =>
        show 0 ≤ (vecScatter N R wf).start (ix1 e) idx 0 + (vecScatter N R wf).window (ix1 e) 0
          ∧ (vecScatter N R wf).start (ix1 e) idx 0 + (vecScatter N R wf).window (ix1 e) 0 < (N : Int)
        rw [vec_start0, vec_window0, hp]
        have := p.isLt
        constructor <;> omega

end Vec

/-- The accumulating scatter into a vector read at `p`: the operand there plus the sum, over the `e` whose index
    word read signed is `p`, of the updates at `e`. -/
theorem scatterAdd_vec_apply {N R w : Nat} {φ : FTy}
    (wf : ScatterDims.WF ⟨1, ![N]⟩ ⟨2, ![R, 1]⟩ ⟨1, ![R]⟩ [] [0] [0] 1)
    (x : FVec Ideal ⟨1, ![N]⟩ φ) (idx : IVec ⟨2, ![R, 1]⟩ w) (upd : FVec Ideal ⟨1, ![R]⟩ φ) (p : Fin N) :
    Host.scatterAdd (vecScatter N R wf) x idx upd (ix1 p)
      = x (ix1 p) + ∑ e ∈ Finset.univ.filter (fun e : Fin R => (idx (ix2 e 0)).toInt = (p.val : Int)),
          upd (ix1 e) := by
  show x (ix1 p) + ∑ j ∈ Finset.univ.filter
      (fun j => (vecScatter N R wf).resultIdx? j idx = some (ix1 p)), upd j = _
  refine congrArg (x (ix1 p) + ·) ?_
  refine Finset.sum_bij' (fun j _ => (show Fin R from j 0)) (fun e _ => ix1 e) ?_ ?_ ?_ ?_ ?_
  · intro j hj
    obtain ⟨e, rfl⟩ : ∃ (e : Fin R), j = ix1 e := ⟨j 0, eq_ix1 j⟩
    have hj2 := (Finset.mem_filter.mp hj).2
    rw [vec_resultIdx_iff] at hj2
    exact Finset.mem_filter.mpr ⟨Finset.mem_univ _, hj2⟩
  · intro e he
    have he2 := (Finset.mem_filter.mp he).2
    exact Finset.mem_filter.mpr ⟨Finset.mem_univ _, (vec_resultIdx_iff wf idx e p).mpr he2⟩
  · intro j hj
    obtain ⟨e, rfl⟩ : ∃ (e : Fin R), j = ix1 e := ⟨j 0, eq_ix1 j⟩
    rfl
  · intro e _; rfl
  · intro j hj
    obtain ⟨e, rfl⟩ : ∃ (e : Fin R), j = ix1 e := ⟨j 0, eq_ix1 j⟩
    rfl

end Cert.LibScatter

end
-- ==== Proof.LibScatterCount.lean ====
/-
  An accumulating integer scatter of ones into a vector counts.

  Operand `[N]` of 32-bit words, scatter indices `[R, 1]`, updates `[R]` all equal to one, the combining
  function addition of words: update element `e` lands on position `idx[e, 0]` read as a signed integer, and is
  dropped when that is outside the operand.  So entry `p` of the result is the operand's entry plus the number
  of the `e` whose index word, read signed, is `p` (as a 32-bit word: addition of words is modulo 2 ^ 32).
-/
import Idealize.ShloMosaic.PureOps.Ideal
import Idealize.ShloMosaic.Lib.ValueIdx
import proofs.«174894_j446676598908_2_alg».proof.Proof.LibScatter

noncomputable section

namespace Cert.LibScatterCount

open Idealize.ShloMosaic Idealize.ShloMosaic.ValueIdx Cert.LibScatter

/-- Counting the positions of `0, …, m - 1` (in order) that satisfy a predicate is the cardinality of the set of
    such positions. -/
theorem countP_finRange_eq_card {m : Nat} (P : Fin m → Prop) [DecidablePred P] :
    (List.finRange m).countP (fun n => decide (P n)) = (Finset.univ.filter P).card := by
  rw [List.countP_eq_length_filter]
  simp [Finset.card, Finset.filter, Fin.univ_def]

/-- Adding one to a word after adding the word of `a`: the word of `a + 1`. -/
theorem ofNat_succ_word (y : BitVec 32) (a : Nat) :
    y + 1#32 + BitVec.ofNat 32 a = y + BitVec.ofNat 32 (a + 1) := by
  rw [BitVec.ofNat_add, BitVec.add_assoc, BitVec.add_comm (1#32)]

/-- The fold of the scatter step with word addition and updates all one, over ANY list of update positions, read at
    an index: the accumulator there plus the number of listed positions that land on that index. -/
theorem foldl_addi_ones {s si u : Shape} {w : Nat} (d : ScatterDims s si u) (idx : IVec si w)
    (L : List (Fin u.numel)) (r : s.Idx → BitVec 32) (i' : s.Idx) :
    (L.foldl (fun r n =>
      match d.resultIdx? (u.rowMajor.symm n) idx with
      | some i => fun i' => if i' = i then IntOp.addi (r i) ((fun _ : u.Idx => 1#32) (u.rowMajor.symm n)) else r i'
      | none => r) r) i'
    = r i' + BitVec.ofNat 32 (L.countP (fun n => decide (d.resultIdx? (u.rowMajor.symm n) idx = some i'))) := by
  induction L generalizing r with
  | nil => simp
  | cons n L ih =>
    rw [List.foldl_cons, ih, List.countP_cons]
    cases hres : d.resultIdx? (u.rowMajor.symm n) idx with
    | none => simp
    | some i =>
      by_cases hi : i' = i
      · subst hi
        simp only [if_pos rfl, decide_true, if_true]
        show r i' + 1#32 + _ = _
        exact ofNat_succ_word _ _
      · have hne : ¬ (some i = some i') := fun h => hi (Option.some.inj h).symm
        simp [hi, hne]

/-- The scatter of ones with word addition, read at `p`: the operand there plus the number of update elements whose
    index word, read signed, is `p`. -/
theorem scatter_addi_ones_vec {N R w : Nat} (wf : ScatterDims.WF ⟨1, ![N]⟩ ⟨2, ![R, 1]⟩ ⟨1, ![R]⟩ [] [0] [0] 1)
    (x : (⟨1, ![N]⟩ : Shape).Idx → BitVec 32) (idx : IVec ⟨2, ![R, 1]⟩ w) (p : Fin N) :
    Host.scatter (vecScatter N R wf) IntOp.addi x idx (fun _ => 1#32) (ix1 p)
      = x (ix1 p) + BitVec.ofNat 32 (Finset.univ.filter fun e : Fin R => (idx (ix2 e 0)).toInt = (p.val : Int)).card := by
  refine (foldl_addi_ones (vecScatter N R wf) idx (List.finRange _) x (ix1 p)).trans ?_
  rw [countP_finRange_eq_card]
  refine congrArg (fun c : Nat => x (ix1 p) + BitVec.ofNat 32 c) ?_
  refine Finset.card_bij' (fun n _ => (show Fin R from ((⟨1, ![R]⟩ : Shape).rowMajor.symm n) 0))
    (fun e _ => (⟨1, ![R]⟩ : Shape).rowMajor (ix1 e)) ?_ ?_ ?_ ?_
  · intro n hn
    have hn2 := (Finset.mem_filter.mp hn).2
    generalize (⟨1, ![R]⟩ : Shape).rowMajor.symm n = j at hn2 ⊢
    obtain ⟨e, rfl⟩ : ∃ e : Fin R, j = ix1 e := ⟨j 0, eq_ix1 j⟩
    rw [vec_resultIdx_iff] at hn2
    exact Finset.mem_filter.mpr ⟨Finset.mem_univ _, hn2⟩
  · intro e he
    have he2 := (Finset.mem_filter.mp he).2
    refine Finset.mem_filter.mpr ⟨Finset.mem_univ _, ?_⟩
    rw [Equiv.symm_apply_apply]
    exact (vec_resultIdx_iff wf idx e p).mpr he2
  · intro n _
    exact (congrArg (⟨1, ![R]⟩ : Shape).rowMajor (eq_ix1 ((⟨1, ![R]⟩ : Shape).rowMajor.symm n)).symm).trans
      (Equiv.apply_symm_apply _ n)
  · intro e _
    show ((⟨1, ![R]⟩ : Shape).rowMajor.symm ((⟨1, ![R]⟩ : Shape).rowMajor (ix1 e))) 0 = e
    rw [Equiv.symm_apply_apply]
    rfl

end Cert.LibScatterCount

end
-- ==== Proof.LibSumDigits.lean ====
/-
  Re-indexing a finite sum by mixed-radix digits, in any additive commutative monoid.

  Every `r < m * n` is `a * n + b` for exactly one pair of digits `a < m`, `b < n`, so a sum over
  `Fin (m * n)` is the double sum over the two digits (`sum_fin_mul`).  Applying this three times, a
  sum over `Fin (n₁ * n₂ * n₃ * n₄)` is the fourfold sum over the digits of
  `r = ((a * n₂ + b) * n₃ + c) * n₄ + d` (`sum_fin_mul4`).  Last, four nested sums may be reordered
  by moving the outer pair of summation variables inside the inner pair (`sum_comm4`).
-/
import Mathlib.Algebra.BigOperators.Fin
import Mathlib.Logic.Equiv.Fin.Basic
import Mathlib.Tactic.Ring

open scoped BigOperators

namespace Cert.SumDigits

variable {M : Type*} [AddCommMonoid M]

/-- A two-digit numeral with digits `a < m` and `b < n` is below `m * n`. -/
theorem digits_lt {m n : ℕ} (a : Fin m) (b : Fin n) : a.val * n + b.val < m * n :=
  calc a.val * n + b.val < a.val * n + n := Nat.add_lt_add_left b.isLt _
    _ = (a.val + 1) * n := by ring
    _ ≤ m * n := Nat.mul_le_mul_right n a.isLt

/-- A sum over `Fin N` with `N = m * n` is the double sum over the digits `a < m`, `b < n` of
    `r = a * n + b`. -/
theorem sum_fin_mul {m n N : ℕ} (hN : m * n = N) (f : Fin N → M) :
    ∑ r : Fin N, f r = ∑ a : Fin m, ∑ b : Fin n, f ⟨a.val * n + b.val, hN ▸ digits_lt a b⟩ := by
  subst hN
  rw [← Equiv.sum_comp finProdFinEquiv f, Fintype.sum_prod_type]
  refine Finset.sum_congr rfl fun a _ => Finset.sum_congr rfl fun b _ => ?_
  congr 1
  ext
  simp only [finProdFinEquiv_apply_val]
  ring

/-- A four-digit numeral with digits `a < n₁`, `b < n₂`, `c < n₃`, `d < n₄` is below
    `n₁ * n₂ * n₃ * n₄`. -/
theorem digits4_lt {n₁ n₂ n₃ n₄ : ℕ} (a : Fin n₁) (b : Fin n₂) (c : Fin n₃) (d : Fin n₄) :
    ((a.val * n₂ + b.val) * n₃ + c.val) * n₄ + d.val < n₁ * n₂ * n₃ * n₄ :=
  digits_lt (⟨_, digits_lt (⟨_, digits_lt a b⟩ : Fin (n₁ * n₂)) c⟩ : Fin (n₁ * n₂ * n₃)) d

/-- A sum over `Fin N` with `N = n₁ * n₂ * n₃ * n₄` is the fourfold sum over the digits of
    `r = ((a * n₂ + b) * n₃ + c) * n₄ + d`. -/
theorem sum_fin_mul4 {n₁ n₂ n₃ n₄ N : ℕ} (hN : n₁ * n₂ * n₃ * n₄ = N) (f : Fin N → M) :
    ∑ r : Fin N, f r = ∑ a : Fin n₁, ∑ b : Fin n₂, ∑ c : Fin n₃, ∑ d : Fin n₄,
      f ⟨((a.val * n₂ + b.val) * n₃ + c.val) * n₄ + d.val, hN ▸ digits4_lt a b c d⟩ := by
  subst hN
  rw [sum_fin_mul (m := n₁ * n₂ * n₃) (n := n₄) rfl f,
    sum_fin_mul (m := n₁ * n₂) (n := n₃) rfl
      (fun p : Fin (n₁ * n₂ * n₃) => ∑ d : Fin n₄, f ⟨p.val * n₄ + d.val, digits_lt p d⟩),
    sum_fin_mul (m := n₁) (n := n₂) rfl
      (fun q : Fin (n₁ * n₂) => ∑ c : Fin n₃, ∑ d : Fin n₄,
        f ⟨(q.val * n₃ + c.val) * n₄ + d.val,
          digits_lt (⟨_, digits_lt q c⟩ : Fin (n₁ * n₂ * n₃)) d⟩)]

/-- Four nested finite sums: the outer two summation variables may be moved inside the inner two. -/
theorem sum_comm4 {α β γ δ : Type*} [Fintype α] [Fintype β] [Fintype γ] [Fintype δ]
    (g : α → β → γ → δ → M) :
    ∑ a, ∑ b, ∑ c, ∑ d, g a b c d = ∑ c, ∑ d, ∑ a, ∑ b, g a b c d :=
  calc ∑ a, ∑ b, ∑ c, ∑ d, g a b c d
      = ∑ a, ∑ c, ∑ b, ∑ d, g a b c d := Finset.sum_congr rfl fun _ _ => Finset.sum_comm
    _ = ∑ c, ∑ a, ∑ b, ∑ d, g a b c d := Finset.sum_comm
    _ = ∑ c, ∑ a, ∑ d, ∑ b, g a b c d :=
        Finset.sum_congr rfl fun _ _ => Finset.sum_congr rfl fun _ _ => Finset.sum_comm
    _ = ∑ c, ∑ d, ∑ a, ∑ b, g a b c d := Finset.sum_congr rfl fun _ _ => Finset.sum_comm

end Cert.SumDigits
-- ==== Proof.RefHist.lean ====
/-
  The reference computes the histograms of the specification.

  The reference scatters a one for every point into a flat array of 16 · 128 · 128 zeros, at the point's cell
  number, adding; then it reshapes the array to [16, 128, 128].  An accumulating scatter of ones counts: entry p
  of the flat array is the number of positions whose cell number, read as a signed integer, is p.  A position is
  b' · 1048576 + n for exactly one batch b' and point n, and when every quantized coordinate is a grid
  coordinate its cell number is kx + 128 · ky + 16384 · b' with kx, ky below 128.  Such a number equals
  (b · 128 + h) · 128 + w exactly when b' = b, ky = h and kx = w (its digits in base 128 are unique), that is,
  when the point is in batch b and falls into cell (h, w).  So the count over all positions is the count over the
  points of batch b that fall into (h, w): the sum of indicators over positions splits into a double sum over
  batches and points, in which only batch b contributes.
-/
import proofs.«174894_j446676598908_2_alg».proof.Proof.RefCell
import proofs.«174894_j446676598908_2_alg».proof.Proof.LibScatterCount
import proofs.«174894_j446676598908_2_alg».proof.Proof.LibSumDigits

noncomputable section

namespace Cert.Hist

open Idealize.ShloMosaic Idealize.ShloMosaic.ValueIdx Cert.ReferenceIdeal Cert.ReferenceIdeal.Gen Cert.ReferenceIdeal.Read

/-- The number of cell `(h, w)` of batch `b` in the flat array of cells. -/
abbrev cell (b : Fin 16) (h w : Fin 128) : Fin 262144 :=
  ⟨(b.val * 128 + h.val) * 128 + w.val, by have := b.isLt; have := h.isLt; have := w.isLt; omega⟩

/-- Point `n` of batch `b'` is scattered to cell `(h, w)` of batch `b` exactly when `b' = b` and the point falls
    into `(h, w)`: the three digits of a cell number are unique, and a word determines a number below 2 ^ 32. -/
theorem hit_iff (x : FVec Ideal Cert.ReferenceIdeal.S16x1048576x2 .f32) (hg : InGrid (quant x))
    (b b' : Fin 16) (h w : Fin 128) (n : Fin 1048576) :
    (val_main_v24 (F := Ideal) x (ix2 (flat b' n) (0 : Fin 1))).toInt = ((cell b h w).val : Int)
      ↔ b' = b ∧ Hit (quant x) b h w n := by
  obtain ⟨kx, hx⟩ := hg (ix3 b' n (0 : Fin 2))
  obtain ⟨ky, hy⟩ := hg (ix3 b' n (1 : Fin 2))
  have hb := b.isLt
  have hb' := b'.isLt
  have hh := h.isLt
  have hw := w.isLt
  have hkx := kx.isLt
  have hky := ky.isLt
  rw [cell_at x b' n kx ky hx hy, toInt_ofNat_small _ (by omega)]
  constructor
  · intro he
    have he' : kx.val + 128 * ky.val + 16384 * b'.val = (b.val * 128 + h.val) * 128 + w.val := by
      exact_mod_cast he
    have hbb : b' = b := Fin.ext (by omega)
    subst hbb
    refine ⟨rfl, ?_, ?_⟩
    · rw [hy, (by omega : ky.val = h.val)]
    · rw [hx, (by omega : kx.val = w.val)]
  · rintro ⟨rfl, h1, h2⟩
    rw [hy, ofNat_eq_iff _ _ (by omega) (by omega)] at h1
    rw [hx, ofNat_eq_iff _ _ (by omega) (by omega)] at h2
    have : kx.val + 128 * ky.val + 16384 * b'.val = (b'.val * 128 + h.val) * 128 + w.val := by omega
    exact_mod_cast this

/-- The number of positions scattered to cell `(h, w)` of batch `b` is the number of points of batch `b` that fall
    into `(h, w)`: as sums of indicators, the sum over positions is the double sum over batches and points, and the
    batches other than `b` contribute nothing. -/
theorem card_cells (x : FVec Ideal Cert.ReferenceIdeal.S16x1048576x2 .f32) (hg : InGrid (quant x))
    (b : Fin 16) (h w : Fin 128) :
    (Finset.univ.filter fun e : Fin 16777216 =>
        (val_main_v24 (F := Ideal) x (ix2 e (0 : Fin 1))).toInt = ((cell b h w).val : Int)).card
      = count (quant x) b h w := by
  unfold count
  rw [Finset.card_filter, Finset.card_filter,
    Cert.SumDigits.sum_fin_mul (m := 16) (n := 1048576) (N := 16777216) (by norm_num) _]
  rw [Finset.sum_eq_single b]
  · refine Finset.sum_congr rfl fun n _ => ?_
    exact if_congr ((hit_iff x hg b b h w n).trans ⟨fun p => p.2, fun p => ⟨rfl, p⟩⟩) rfl rfl
  · intro b' _ hne
    refine Finset.sum_eq_zero fun n _ => ?_
    rw [if_neg]
    intro he
    exact hne ((hit_iff x hg b b' h w n).mp he).1
  · intro hb
    exact absurd (Finset.mem_univ b) hb

/-- The reference's second result is the array of counts: entry `(b, h, w)` of the reshaped array is entry
    `(b · 128 + h) · 128 + w` of the scattered one, which is zero plus the number of positions scattered there. -/
theorem ref_hist (x : FVec Ideal Cert.ReferenceIdeal.S16x1048576x2 .f32) (hg : InGrid (quant x)) :
    Cert.ReferenceIdeal.Read.val_main_v27 (F := Ideal) x = hist (quant x) := by
  funext j
  obtain ⟨b, h, w, rfl⟩ : ∃ (b : Fin 16) (h w : Fin 128), j = ix3 b h w := ⟨j 0, j 1, j 2, eq_ix3 j⟩
  have hp : idx_main_v27 (ix3 b h w) = ix1 (cell b h w) := by
    funext a; match a with | ⟨0, _⟩ => rfl
  have hones : val_main_v25 (F := Ideal) = fun _ => 1#32 := by
    funext i; rw [val_main_v25_apply, val_main_c_4_apply]
  have hrec : scatter_S262144_S16777216x1_S16777216_n_0_0_1
      = Cert.LibScatter.vecScatter 262144 16777216 Facts₀.scatter_S262144_S16777216x1_S16777216_n_0_0_1_wf := rfl
  rw [val_main_v27_apply, hp]
  unfold val_main_v26
  rw [hones, hrec, Cert.LibScatterCount.scatter_addi_ones_vec, val_main_v18_apply, val_main_c_1_apply,
    card_cells x hg b h w, BitVec.zero_add]
  rfl

end Cert.Hist

end
-- ==== Proof.BlockGeometry.lean ====
/-
  The geometry of the kernel's three windows over its grid.

  The grid has 16 × 128 points; point `t` has coordinates `(t / 128, t % 128)`: a batch and a tile of it.  The input
  and the first output are arrays `[16, 1048576, 2]` cut into blocks `[1, 8192, 2]`, the block of point `t` at block
  index `(t / 128, t % 128, 0)`; the second output is an array `[16, 128, 128]` cut into blocks `[1, 128, 128]`, the
  block of point `t` at block index `(t / 128, 0, 0)`, written back at the last tile of each batch only.  Here: where
  an index inside a block sits in its array, when each output is written back, and that every index of each output
  array lies in the block of a point that writes it back.
-/
import proofs.«174894_j446676598908_2_alg».proof.Proof.Gen.KernelIdeal.Launch
import proofs.«174894_j446676598908_2_alg».proof.Proof.Gen.KernelIdeal.Points
import Idealize.ShloMosaic.Lib.Pipeline.Value
import Idealize.ShloMosaic.Lib.ValueIdx

set_option maxRecDepth 16384

noncomputable section

namespace Cert.Hist

open Cert.KernelIdeal Cert.KernelIdeal.Gen Idealize.ShloMosaic Idealize.ShloMosaic.ValueIdx

/-! ## When the outputs are written back -/

/-- The first output's block is written back at every point. -/
theorem flush1 (t : Fin cfg0.N) : (cfg0.win 1).flush t = true := flush0_1 t

/-- The second output's block is written back exactly at the last tile of a batch. -/
theorem flush2_iff (t : Fin cfg0.N) : (cfg0.win 2).flush t = true ↔ t.val % 128 = 127 := flush0_2 t

/-! ## The block indices -/

/-- The block index of each window at point `t`, in closed form: decided once over the grid's points. -/
theorem index_facts : ∀ t : Fin cfg0.N,
    win0_0.index t (0 : Fin 3) = t.val / 128 ∧ win0_0.index t (1 : Fin 3) = t.val % 128 ∧ win0_0.index t (2 : Fin 3) = 0
    ∧ win0_1.index t (0 : Fin 3) = t.val / 128 ∧ win0_1.index t (1 : Fin 3) = t.val % 128 ∧ win0_1.index t (2 : Fin 3) = 0
    ∧ win0_2.index t (0 : Fin 3) = t.val / 128 ∧ win0_2.index t (1 : Fin 3) = 0 ∧ win0_2.index t (2 : Fin 3) = 0 :=
  (by decide +kernel : ∀ t : Fin grid0.N, _)

/-! ## Membership in a block -/

/-- An index of the first output's array is in point `t`'s block iff each coordinate is in the block's range on its
    axis. -/
theorem mem_blk1 (t : Fin cfg0.N) (i : S16x1048576x2.Idx) :
    i ∈ ((cfg0.win 1).blk t).view.set ↔ ∀ a : Fin 3, win0_1.index t a * S1x8192x2.size a ≤ (i a).val
      ∧ (i a).val < win0_1.index t a * S1x8192x2.size a + S1x8192x2.size a := by
  show i ∈ ((View.whole main_v0_0).slice (win0_1.rect t)).set ↔ _
  rw [View.set_slice_whole, Rect.mem_set_unit]
  exact Iff.rfl

/-- The same for the second output's array. -/
theorem mem_blk2 (t : Fin cfg0.N) (i : S16x128x128.Idx) :
    i ∈ ((cfg0.win 2).blk t).view.set ↔ ∀ a : Fin 3, win0_2.index t a * S1x128x128.size a ≤ (i a).val
      ∧ (i a).val < win0_2.index t a * S1x128x128.size a + S1x128x128.size a := by
  show i ∈ ((View.whole main_v0_1).slice (win0_2.rect t)).set ↔ _
  rw [View.set_slice_whole, Rect.mem_set_unit]
  exact Iff.rfl

/-! ## Where an index inside a block sits in the array

On each axis the array's coordinate is the block index times the block's extent plus the coordinate inside the block. -/

/-- Index `y` inside the input's block at point `t` is the array's index `(t / 128, 8192 (t % 128) + y₁, y₂)`. -/
theorem emb0_val (t : Fin cfg0.N) (y : S1x8192x2.Idx) :
    ((((cfg0.win 0).blk t).view.emb y) 0).val = t.val / 128
      ∧ ((((cfg0.win 0).blk t).view.emb y) 1).val = 8192 * (t.val % 128) + (y 1).val
      ∧ ((((cfg0.win 0).blk t).view.emb y) 2).val = (y 2).val := by
  obtain ⟨e0, e1, e2, -, -, -, -, -, -⟩ := index_facts t
  have hy0 : (y 0).val < 1 := (y 0).isLt
  refine ⟨?_, ?_, ?_⟩
  · show win0_0.index t (0 : Fin 3) * 1 + 1 * (y 0).val = t.val / 128
    omega
  · show win0_0.index t (1 : Fin 3) * 8192 + 1 * (y 1).val = 8192 * (t.val % 128) + (y 1).val
    omega
  · show win0_0.index t (2 : Fin 3) * 2 + 1 * (y 2).val = (y 2).val
    omega

/-- The same for the first output's block. -/
theorem emb1_val (t : Fin cfg0.N) (y : S1x8192x2.Idx) :
    ((((cfg0.win 1).blk t).view.emb y) 0).val = t.val / 128
      ∧ ((((cfg0.win 1).blk t).view.emb y) 1).val = 8192 * (t.val % 128) + (y 1).val
      ∧ ((((cfg0.win 1).blk t).view.emb y) 2).val = (y 2).val := by
  obtain ⟨-, -, -, e0, e1, e2, -, -, -⟩ := index_facts t
  have hy0 : (y 0).val < 1 := (y 0).isLt
  refine ⟨?_, ?_, ?_⟩
  · show win0_1.index t (0 : Fin 3) * 1 + 1 * (y 0).val = t.val / 128
    omega
  · show win0_1.index t (1 : Fin 3) * 8192 + 1 * (y 1).val = 8192 * (t.val % 128) + (y 1).val
    omega
  · show win0_1.index t (2 : Fin 3) * 2 + 1 * (y 2).val = (y 2).val
    omega

/-- Index `y` inside the second output's block at point `t` is the array's index `(t / 128, y₁, y₂)`. -/
theorem emb2_val (t : Fin cfg0.N) (y : S1x128x128.Idx) :
    ((((cfg0.win 2).blk t).view.emb y) 0).val = t.val / 128
      ∧ ((((cfg0.win 2).blk t).view.emb y) 1).val = (y 1).val
      ∧ ((((cfg0.win 2).blk t).view.emb y) 2).val = (y 2).val := by
  obtain ⟨-, -, -, -, -, -, e0, e1, e2⟩ := index_facts t
  have hy0 : (y 0).val < 1 := (y 0).isLt
  refine ⟨?_, ?_, ?_⟩
  · show win0_2.index t (0 : Fin 3) * 1 + 1 * (y 0).val = t.val / 128
    omega
  · show win0_2.index t (1 : Fin 3) * 128 + 1 * (y 1).val = (y 1).val
    omega
  · show win0_2.index t (2 : Fin 3) * 128 + 1 * (y 2).val = (y 2).val
    omega

/-! ## Every index of an output lies in a block that is written back -/

/-- Index `(b, n, a)` of the first output's array lies in the block of point `128 b + n / 8192`, which is written back. -/
theorem cover1 (i : S16x1048576x2.Idx) :
    ∃ t : Fin cfg0.N, (cfg0.win 1).flush t = true ∧ i ∈ ((cfg0.win 1).blk t).view.set := by
  have hi0 : (i 0).val < 16 := (i 0).isLt
  have hi1 : (i 1).val < 1048576 := (i 1).isLt
  have hi2 : (i 2).val < 2 := (i 2).isLt
  have hN : cfg0.N = 2048 := N_0
  have ht : 128 * (i 0).val + (i 1).val / 8192 < cfg0.N := by rw [hN]; omega
  obtain ⟨t, htv⟩ : ∃ t : Fin cfg0.N, t.val = 128 * (i 0).val + (i 1).val / 8192 := ⟨⟨_, ht⟩, rfl⟩
  refine ⟨t, flush1 t, ?_⟩
  rw [mem_blk1]
  obtain ⟨-, -, -, e0, e1, e2, -, -, -⟩ := index_facts t
  intro a
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 8192 ≤ (i 1).val ∧ (i 1).val < win0_1.index t (1 : Fin 3) * 8192 + 8192
    omega
  | ⟨2, _⟩ =>
    show win0_1.index t (2 : Fin 3) * 2 ≤ (i 2).val ∧ (i 2).val < win0_1.index t (2 : Fin 3) * 2 + 2
    omega

/-- Index `(b, h, w)` of the second output's array lies in the block of point `128 b + 127`, the last tile of batch
    `b`, which is written back. -/
theorem cover2 (i : S16x128x128.Idx) :
    ∃ t : Fin cfg0.N, (cfg0.win 2).flush t = true ∧ i ∈ ((cfg0.win 2).blk t).view.set := by
  have hi0 : (i 0).val < 16 := (i 0).isLt
  have hi1 : (i 1).val < 128 := (i 1).isLt
  have hi2 : (i 2).val < 128 := (i 2).isLt
  have hN : cfg0.N = 2048 := N_0
  have ht : 128 * (i 0).val + 127 < cfg0.N := by rw [hN]; omega
  obtain ⟨t, htv⟩ : ∃ t : Fin cfg0.N, t.val = 128 * (i 0).val + 127 := ⟨⟨_, ht⟩, rfl⟩
  refine ⟨t, (flush2_iff t).mpr (by omega), ?_⟩
  rw [mem_blk2]
  obtain ⟨-, -, -, -, -, -, e0, e1, e2⟩ := index_facts t
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 128 ≤ (i 1).val ∧ (i 1).val < win0_2.index t (1 : Fin 3) * 128 + 128
    omega
  | ⟨2, _⟩ =>
    show win0_2.index t (2 : Fin 3) * 128 ≤ (i 2).val ∧ (i 2).val < win0_2.index t (2 : Fin 3) * 128 + 128
    omega

end Cert.Hist

end
-- ==== Proof.CountSteps.lean ====
/-
  Counting the points chunk by chunk.

  `countTo q b h w k` is the number of points n < k of batch b that fall into cell (h, w).
  It starts at 0, reaches `count` at k = 1048576, and grows over the next 4096 points by the
  number of those points that fall into the cell: the points below k + 4096 are the points
  below k together with the points k + r, r < 4096, and the two sets are disjoint.

  Also: a sum of 0/1 indicators in the extended reals is the number of indices where the
  condition holds, and the natural numbers embed additively.
-/
import proofs.«174894_j446676598908_2_alg».proof.Proof.HistSpec
import Mathlib.Data.EReal.Basic
import Mathlib.Algebra.BigOperators.Ring.Finset

noncomputable section

namespace Cert.Hist

open Idealize.ShloMosaic Idealize.ShloMosaic.ValueIdx

/-- The number of points `n < k` of batch `b` that fall into cell `(h, w)`. -/
def countTo (q : SXY.Idx → BitVec 32) (b : Fin 16) (h w : Fin 128) (k : ℕ) : ℕ :=
  (Finset.univ.filter fun n : Fin 1048576 => n.val < k ∧ Hit q b h w n).card

/-- No point lies below 0. -/
theorem countTo_zero (q : SXY.Idx → BitVec 32) (b : Fin 16) (h w : Fin 128) : countTo q b h w 0 = 0 := by
  unfold countTo
  rw [Finset.card_eq_zero, Finset.filter_eq_empty_iff]
  intro n _ hn
  exact absurd hn.1 (Nat.not_lt_zero _)

/-- Every point lies below 1048576. -/
theorem countTo_full (q : SXY.Idx → BitVec 32) (b : Fin 16) (h w : Fin 128) :
    countTo q b h w 1048576 = count q b h w := by
  unfold countTo count
  refine congrArg Finset.card (Finset.filter_congr ?_)
  intro n _
  exact ⟨fun hn => hn.2, fun hn => ⟨n.isLt, hn⟩⟩

/-- The next 4096 points: the points below `k + 4096` are those below `k` and, disjoint from them,
    the points `k + r` with `r < 4096`. -/
theorem countTo_chunk (q : SXY.Idx → BitVec 32) (b : Fin 16) (h w : Fin 128) (k : ℕ) (hk : k + 4096 ≤ 1048576) :
    countTo q b h w (k + 4096) = countTo q b h w k
      + (Finset.univ.filter fun r : Fin 4096 => Hit q b h w ⟨k + r.val, by have := r.isLt; omega⟩).card := by
  unfold countTo
  have hsplit : (Finset.univ.filter fun n : Fin 1048576 => n.val < k + 4096 ∧ Hit q b h w n)
      = (Finset.univ.filter fun n : Fin 1048576 => n.val < k ∧ Hit q b h w n)
        ∪ (Finset.univ.filter fun n : Fin 1048576 => (k ≤ n.val ∧ n.val < k + 4096) ∧ Hit q b h w n) := by
    ext n
    rw [Finset.mem_union, Finset.mem_filter, Finset.mem_filter, Finset.mem_filter]
    constructor
    · rintro ⟨_, h1, h2⟩
      by_cases hk' : n.val < k
      · exact Or.inl ⟨Finset.mem_univ _, hk', h2⟩
      · exact Or.inr ⟨Finset.mem_univ _, ⟨Nat.le_of_not_lt hk', h1⟩, h2⟩
    · rintro (⟨_, h1, h2⟩ | ⟨_, ⟨_, h1⟩, h2⟩)
      · exact ⟨Finset.mem_univ _, Nat.lt_of_lt_of_le h1 (Nat.le_add_right _ _), h2⟩
      · exact ⟨Finset.mem_univ _, h1, h2⟩
  have hdisj : Disjoint (Finset.univ.filter fun n : Fin 1048576 => n.val < k ∧ Hit q b h w n)
      (Finset.univ.filter fun n : Fin 1048576 => (k ≤ n.val ∧ n.val < k + 4096) ∧ Hit q b h w n) := by
    rw [Finset.disjoint_left]
    intro n hn1 hn2
    rw [Finset.mem_filter] at hn1 hn2
    exact absurd hn1.2.1 (Nat.not_lt_of_le hn2.2.1.1)
  rw [hsplit, Finset.card_union_of_disjoint hdisj, Nat.add_left_cancel_iff]
  symm
  refine Finset.card_bij (fun r _ => (⟨k + r.val, by have := r.isLt; omega⟩ : Fin 1048576)) ?_ ?_ ?_
  · intro r hr
    rw [Finset.mem_filter] at hr ⊢
    exact ⟨Finset.mem_univ _, ⟨Nat.le_add_right _ _, Nat.add_lt_add_left r.isLt _⟩, hr.2⟩
  · intro r₁ _ r₂ _ e
    have e' := congrArg Fin.val e
    apply Fin.ext
    simp only at e'
    omega
  · intro n hn
    rw [Finset.mem_filter] at hn
    obtain ⟨_, ⟨h1, h2⟩, h3⟩ := hn
    have hlt : n.val - k < 4096 := by omega
    have hn' : (⟨k + (n.val - k), by omega⟩ : Fin 1048576) = n := Fin.ext (by simp only; omega)
    refine ⟨⟨n.val - k, hlt⟩, ?_, hn'⟩
    rw [Finset.mem_filter]
    refine ⟨Finset.mem_univ _, ?_⟩
    show Hit q b h w ⟨k + (n.val - k), _⟩
    rw [hn']
    exact h3

/-- A batch holds 1048576 points. -/
theorem countTo_le (q : SXY.Idx → BitVec 32) (b : Fin 16) (h w : Fin 128) (k : ℕ) : countTo q b h w k ≤ 1048576 := by
  unfold countTo
  exact (Finset.card_filter_le _ _).trans (by simp)

/-- A finite sum of reals, taken in the extended reals, is the real sum. -/
theorem sum_coe_ereal {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, EReal.coe_add, ih]

/-- A sum of 0/1 indicators over a finite type is the number of indices where the condition holds,
    as an extended real. -/
theorem sum_indicator_ereal {ι : Type*} [Fintype ι] (p : ι → Prop) [DecidablePred p] :
    (∑ i : ι, (if p i then (1 : EReal) else 0)) = (((Finset.univ.filter p).card : ℕ) : ℝ) := by
  have hreal : (∑ i : ι, (if p i then (1 : ℝ) else 0)) = ((Finset.univ.filter p).card : ℝ) := by
    rw [Finset.sum_boole]
  rw [← hreal, ← sum_coe_ereal]
  refine Finset.sum_congr rfl ?_
  intro i _
  split
  · exact EReal.coe_one.symm
  · exact EReal.coe_zero.symm

/-- The natural numbers embed additively into the extended reals. -/
theorem natCast_add_ereal (a b : ℕ) : (((a + b : ℕ) : ℝ) : EReal) = ((a : ℕ) : ℝ) + ((b : ℕ) : ℝ) := by
  rw [Nat.cast_add, EReal.coe_add]

end Cert.Hist

end
-- ==== Proof.ScratchSteps.lean ====
/-
  The running block of counts, grid point by grid point.

  The points of a batch are visited in 128 tiles of 8192 points, each tile in two chunks of 4096.
  A running 128 × 128 block is set to zero at a batch's first tile and each chunk adds, at (h, w),
  the number of the chunk's points that fall into cell (h, w).  By induction over the grid points,
  after tile nb of batch b the block holds, at (h, w), the number of the first 8192·(nb + 1) points
  of batch b that fall into the cell; after the batch's last tile that is the batch's full count.
-/
import proofs.«174894_j446676598908_2_alg».proof.Proof.HistSpec
import proofs.«174894_j446676598908_2_alg».proof.Proof.CountSteps
import Idealize.ShloMosaic.Lib.ValueIdx

noncomputable section

namespace Cert.Hist

open Idealize.ShloMosaic Idealize.ShloMosaic.ValueIdx

/-- A tile: 8192 points with two coordinates. -/
abbrev B8192 : Shape := ⟨3, ![1, 8192, 2]⟩
/-- A chunk: 4096 points with two coordinates. -/
abbrev B4096 : Shape := ⟨3, ![1, 4096, 2]⟩
/-- One batch's 128 × 128 grid. -/
abbrev G128 : Shape := ⟨2, ![128, 128]⟩

/-- A rank-3 index's middle coordinate is below the middle extent. -/
theorem idx3_lt1 {n0 n1 n2 : Nat} (j : (⟨3, ![n0, n1, n2]⟩ : Shape).Idx) : (j 1).val < n1 := (j 1).isLt

/-- Chunk `k` (`k = 0, 1`) of a tile of 8192 points: its points 4096·k, …, 4096·k + 4095. -/
def chunk (k : Fin 2) (x : B8192.Idx → EReal) : B4096.Idx → EReal :=
  fun y => x (ix3 (0 : Fin 1) ⟨4096 * k.val + (y 1).val, by have := idx3_lt1 y; have := k.isLt; omega⟩ (y 2))

/-- Point `r` of chunk `k` is point `4096·k + r` of the tile. -/
theorem chunk_apply (k : Fin 2) (x : B8192.Idx → EReal) (r : Fin 4096) (a : Fin 2) :
    chunk k x (ix3 (0 : Fin 1) r a)
      = x (ix3 (0 : Fin 1) ⟨4096 * k.val + r.val, by have := r.isLt; have := k.isLt; omega⟩ a) := rfl

/-- `countTo` depends on the batch and the bound only through their values. -/
theorem countTo_congr (q : SXY.Idx → BitVec 32) {b b' : Fin 16} (h w : Fin 128) {k k' : ℕ}
    (hb : b.val = b'.val) (hk : k = k') : countTo q b h w k = countTo q b' h w k' := by
  have hbb : b = b' := Fin.ext hb
  subst hbb
  subst hk
  rfl

/-- Point `r` of chunk `k` of the tile at grid point `t` is point `K + r` of batch `b`,
    where `b = t / 128` and `K = 8192·(t % 128) + 4096·k`. -/
theorem chunk_blk_apply (xy : SXY.Idx → EReal) (blk : Fin 2048 → (B8192.Idx → EReal))
    (hblk : ∀ (t : Fin 2048) (r : Fin 8192) (a : Fin 2),
        blk t (ix3 (0 : Fin 1) r a) = xy (ix3 ⟨t.val / 128, by have := t.isLt; omega⟩ ⟨8192 * (t.val % 128) + r.val, by have := r.isLt; omega⟩ a))
    (t : Fin 2048) (b : Fin 16) (hb : b.val = t.val / 128) (k : Fin 2) (K : ℕ) (hK : K = 8192 * (t.val % 128) + 4096 * k.val)
    (r : Fin 4096) (a : Fin 2) (hlt : K + r.val < 1048576) :
    chunk k (blk t) (ix3 (0 : Fin 1) r a) = xy (ix3 b ⟨K + r.val, hlt⟩ a) := by
  rw [chunk_apply, hblk]
  have e1 : (⟨t.val / 128, by have := t.isLt; omega⟩ : Fin 16) = b := Fin.ext hb.symm
  have e2 : ∀ (p : 8192 * (t.val % 128) + (4096 * k.val + r.val) < 1048576),
      (⟨8192 * (t.val % 128) + (4096 * k.val + r.val), p⟩ : Fin 1048576) = ⟨K + r.val, hlt⟩ := by
    intro p
    apply Fin.ext
    show 8192 * (t.val % 128) + (4096 * k.val + r.val) = K + r.val
    omega
  rw [e1, e2]

/-- One chunk: a block holding the counts of batch `b`'s points below `K` holds, after the step on the chunk
    that starts at point `K`, the counts of the points below `K + 4096`. -/
theorem step_chunk (xy : SXY.Idx → EReal)
    (step : (B4096.Idx → EReal) → (G128.Idx → EReal) → (G128.Idx → EReal))
    (hstep : ∀ (x : B4096.Idx → EReal) (acc : G128.Idx → EReal) (h w : Fin 128),
        step x acc (ix2 h w) = acc (ix2 h w) + ((((Finset.univ.filter fun r : Fin 4096 =>
            Ideal.fptosi 32 (x (ix3 (0 : Fin 1) r (1 : Fin 2)) * c127) = BitVec.ofNat 32 h.val
            ∧ Ideal.fptosi 32 (x (ix3 (0 : Fin 1) r (0 : Fin 2)) * c127) = BitVec.ofNat 32 w.val).card : ℕ) : ℝ) : EReal))
    (blk : Fin 2048 → (B8192.Idx → EReal))
    (hblk : ∀ (t : Fin 2048) (r : Fin 8192) (a : Fin 2),
        blk t (ix3 (0 : Fin 1) r a) = xy (ix3 ⟨t.val / 128, by have := t.isLt; omega⟩ ⟨8192 * (t.val % 128) + r.val, by have := r.isLt; omega⟩ a))
    (t : Fin 2048) (b : Fin 16) (hb : b.val = t.val / 128) (k : Fin 2) (acc : G128.Idx → EReal) (h w : Fin 128)
    (K : ℕ) (hK : K = 8192 * (t.val % 128) + 4096 * k.val)
    (hacc : acc (ix2 h w) = (((countTo (quant xy) b h w K : ℕ) : ℝ) : EReal)) :
    step (chunk k (blk t)) acc (ix2 h w) = (((countTo (quant xy) b h w (K + 4096) : ℕ) : ℝ) : EReal) := by
  have hKb : K + 4096 ≤ 1048576 := by have := t.isLt; have := k.isLt; omega
  have hcard : (Finset.univ.filter fun r : Fin 4096 =>
        Ideal.fptosi 32 (chunk k (blk t) (ix3 (0 : Fin 1) r (1 : Fin 2)) * c127) = BitVec.ofNat 32 h.val
        ∧ Ideal.fptosi 32 (chunk k (blk t) (ix3 (0 : Fin 1) r (0 : Fin 2)) * c127) = BitVec.ofNat 32 w.val).card
      = (Finset.univ.filter fun r : Fin 4096 =>
          Hit (quant xy) b h w ⟨K + r.val, by have := r.isLt; omega⟩).card := by
    refine congrArg Finset.card (Finset.filter_congr ?_)
    intro r _
    rw [chunk_blk_apply xy blk hblk t b hb k K hK r 1 (by have := r.isLt; omega),
      chunk_blk_apply xy blk hblk t b hb k K hK r 0 (by have := r.isLt; omega)]
    exact Iff.rfl
  rw [hstep, hacc, hcard, countTo_chunk _ _ _ _ K hKb, natCast_add_ereal]

/-- After the tile at grid point `n` (batch `n / 128`, tile `n % 128`) the running block holds, at `(h, w)`,
    the number of the batch's first `8192·(n % 128 + 1)` points that fall into cell `(h, w)`. -/
theorem scratch_after (xy : SXY.Idx → EReal)
    (step : (B4096.Idx → EReal) → (G128.Idx → EReal) → (G128.Idx → EReal))
    (hstep : ∀ (x : B4096.Idx → EReal) (acc : G128.Idx → EReal) (h w : Fin 128),
        step x acc (ix2 h w) = acc (ix2 h w) + ((((Finset.univ.filter fun r : Fin 4096 =>
            Ideal.fptosi 32 (x (ix3 (0 : Fin 1) r (1 : Fin 2)) * c127) = BitVec.ofNat 32 h.val
            ∧ Ideal.fptosi 32 (x (ix3 (0 : Fin 1) r (0 : Fin 2)) * c127) = BitVec.ofNat 32 w.val).card : ℕ) : ℝ) : EReal))
    (zero : G128.Idx → EReal) (hzero : ∀ j, zero j = 0)
    (blk : Fin 2048 → (B8192.Idx → EReal))
    (hblk : ∀ (t : Fin 2048) (r : Fin 8192) (a : Fin 2),
        blk t (ix3 (0 : Fin 1) r a) = xy (ix3 ⟨t.val / 128, by have := t.isLt; omega⟩ ⟨8192 * (t.val % 128) + r.val, by have := r.isLt; omega⟩ a))
    (sc : (n : ℕ) → n < 2048 → (G128.Idx → EReal))
    (hA : ∀ n (hn : n < 2048), n % 128 = 0 → sc n hn = step (chunk 1 (blk ⟨n, hn⟩)) (step (chunk 0 (blk ⟨n, hn⟩)) zero))
    (hB : ∀ n (hn : n < 2048), ¬ n % 128 = 0 → sc n hn = step (chunk 1 (blk ⟨n, hn⟩)) (step (chunk 0 (blk ⟨n, hn⟩)) (sc (n - 1) (by omega))))
    (n : ℕ) (hn : n < 2048) (h w : Fin 128) :
    sc n hn (ix2 h w) = (((countTo (quant xy) ⟨n / 128, by omega⟩ h w (8192 * (n % 128 + 1)) : ℕ) : ℝ) : EReal) := by
  induction n using Nat.strong_induction_on with
  | _ n ih =>
    have hb : (⟨n / 128, by omega⟩ : Fin 16).val = (⟨n, hn⟩ : Fin 2048).val / 128 := rfl
    -- the two chunks of the tile, from a block that holds the counts below the tile's first point
    have two : ∀ acc : G128.Idx → EReal,
        acc (ix2 h w) = (((countTo (quant xy) ⟨n / 128, by omega⟩ h w (8192 * (n % 128)) : ℕ) : ℝ) : EReal) →
        step (chunk 1 (blk ⟨n, hn⟩)) (step (chunk 0 (blk ⟨n, hn⟩)) acc) (ix2 h w)
          = (((countTo (quant xy) ⟨n / 128, by omega⟩ h w (8192 * (n % 128 + 1)) : ℕ) : ℝ) : EReal) := by
      intro acc hacc
      have s0 := step_chunk xy step hstep blk hblk ⟨n, hn⟩ ⟨n / 128, by omega⟩ hb 0 acc h w (8192 * (n % 128))
        (by show 8192 * (n % 128) = 8192 * (n % 128) + 4096 * 0; omega) hacc
      have s1 := step_chunk xy step hstep blk hblk ⟨n, hn⟩ ⟨n / 128, by omega⟩ hb 1 _ h w (8192 * (n % 128) + 4096)
        (by show 8192 * (n % 128) + 4096 = 8192 * (n % 128) + 4096 * 1; omega) s0
      rw [s1]
      exact congrArg (fun c : ℕ => ((c : ℝ) : EReal)) (countTo_congr _ h w rfl (by omega))
    by_cases h0 : n % 128 = 0
    · rw [hA n hn h0]
      apply two
      rw [hzero, h0, Nat.mul_zero, countTo_zero, Nat.cast_zero, EReal.coe_zero]
    · rw [hB n hn h0]
      apply two
      rw [ih (n - 1) (by omega) (by omega)]
      exact congrArg (fun c : ℕ => ((c : ℝ) : EReal))
        (countTo_congr _ h w (by show (n - 1) / 128 = n / 128; omega) (by omega))

/-- At the last tile of a batch the running block holds the batch's full counts. -/
theorem scratch_last (xy : SXY.Idx → EReal)
    (step : (B4096.Idx → EReal) → (G128.Idx → EReal) → (G128.Idx → EReal))
    (hstep : ∀ (x : B4096.Idx → EReal) (acc : G128.Idx → EReal) (h w : Fin 128),
        step x acc (ix2 h w) = acc (ix2 h w) + ((((Finset.univ.filter fun r : Fin 4096 =>
            Ideal.fptosi 32 (x (ix3 (0 : Fin 1) r (1 : Fin 2)) * c127) = BitVec.ofNat 32 h.val
            ∧ Ideal.fptosi 32 (x (ix3 (0 : Fin 1) r (0 : Fin 2)) * c127) = BitVec.ofNat 32 w.val).card : ℕ) : ℝ) : EReal))
    (zero : G128.Idx → EReal) (hzero : ∀ j, zero j = 0)
    (blk : Fin 2048 → (B8192.Idx → EReal))
    (hblk : ∀ (t : Fin 2048) (r : Fin 8192) (a : Fin 2),
        blk t (ix3 (0 : Fin 1) r a) = xy (ix3 ⟨t.val / 128, by have := t.isLt; omega⟩ ⟨8192 * (t.val % 128) + r.val, by have := r.isLt; omega⟩ a))
    (sc : (n : ℕ) → n < 2048 → (G128.Idx → EReal))
    (hA : ∀ n (hn : n < 2048), n % 128 = 0 → sc n hn = step (chunk 1 (blk ⟨n, hn⟩)) (step (chunk 0 (blk ⟨n, hn⟩)) zero))
    (hB : ∀ n (hn : n < 2048), ¬ n % 128 = 0 → sc n hn = step (chunk 1 (blk ⟨n, hn⟩)) (step (chunk 0 (blk ⟨n, hn⟩)) (sc (n - 1) (by omega))))
    (n : ℕ) (hn : n < 2048) (hlast : n % 128 = 127) (h w : Fin 128) :
    sc n hn (ix2 h w) = (((count (quant xy) ⟨n / 128, by omega⟩ h w : ℕ) : ℝ) : EReal) := by
  rw [scratch_after xy step hstep zero hzero blk hblk sc hA hB n hn h w, ← countTo_full]
  exact congrArg (fun c : ℕ => ((c : ℝ) : EReal)) (countTo_congr _ h w rfl (by omega))

end Cert.Hist

end
-- ==== Proof.TripChunk.lean ====
/-
  What a trip of the body's loop loads, at the ideal values, from buffers whose contents are known.

  When the tile's buffer reads as x0, trip k loads chunk k of x0 (its points 4096·k, …,
  4096·k + 4095); when the running block's buffer reads as a0, a trip loads a0.
-/
import proofs.«174894_j446676598908_2_alg».proof.Proof.TripPieces
import proofs.«174894_j446676598908_2_alg».proof.Proof.ScratchSteps
import Idealize.ShloMosaic.Lib.WholeRead

noncomputable section

namespace Cert.Hist

open Idealize.ShloMosaic Idealize.ShloMosaic.ValueIdx Idealize.SL.Sem
open Cert.KernelIdeal Cert.KernelIdeal.Gen

variable [Cert.KernelIdeal.Facts]
variable {F : FTy → Type} [FloatOps F]

/-- At the ideal values, with the tile's buffer reading as x0: trip k loads chunk k of the tile. -/
theorem loaded_chunk_eq (arg2 : Memref sig .tc .vmem S1x8192x2 .f32) (harg2 : arg2.IsWhole) (x0 : Vec Ideal S1x8192x2 .f32) (k : Fin k0_t1_loop.trips) :
    View.readAt (Elt Ideal) arg2.view (Rect.unit (s := S1x8192x2) (k0_off1 k) S1x4096x2.size (Facts₀.k0_off1_inb k)).toLoadRect (harg2.unread x0)
      = chunk ⟨k.val, trip_lt_two k⟩ x0 := by
  rw [loaded_chunk_read, harg2.read_unread]
  rfl

/-- With the running block's buffer reading as a0, a trip loads a0. -/
theorem loaded_scratch_eq (arg5 : Memref sig .tc .vmem S128x128 .f32) (harg5 : arg5.IsWhole) (a0 : Vec F S128x128 .f32) :
    View.readAt (Elt F) arg5.view (Rect.unit (s := S128x128) ![0, 0] S128x128.size Facts₀.inb_S128x128_S128x128_0_0).toLoadRect (harg5.unread a0)
      = a0 := by
  rw [loaded_scratch_read, harg5.read_unread]

end Cert.Hist

end
-- ==== Proof.ChunkQuant.lean ====
/-
  The kernel body's simple stored values, read at an index at the ideal values.

  The body quantizes a chunk of 4096 points (each coordinate times 127, truncated toward zero to a
  32-bit word), starts its 128 × 128 block of counts at zero, and at the end converts the block of
  counts, held as reals, to 32-bit words.  Each of these values is read here at one index; the
  reshapes between [1, 4096, 2] and [4096, 2], and between [128, 128] and [1, 128, 128], only add
  or drop the leading coordinate 0.
-/
import proofs.«174894_j446676598908_2_alg».proof.Proof.Gen.KernelIdeal.Skeleton
import proofs.«174894_j446676598908_2_alg».proof.Proof.HistSpec
import Idealize.ShloMosaic.Lib.Pipeline.Value
import Idealize.ShloMosaic.PureOps.Ideal.Laws

noncomputable section

namespace Cert.Hist

open Idealize.ShloMosaic Idealize.ShloMosaic.ValueIdx Idealize.SL.Sem
open Cert.KernelIdeal Cert.KernelIdeal.Gen

variable [Cert.KernelIdeal.Facts]

/-- The zero block: every entry is the real 0. -/
theorem pay1_apply (j : S128x128.Idx) : k0_pay1 (F := Ideal) j = 0 := by
  unfold k0_pay1
  rw [shapeCast_self]
  show Ideal.ofBits .f32 0x00000000#32 = 0
  exact Ideal.ofBits_zero_f32

/-- The quantized chunk viewed as [4096, 2]: entry (r, a) is coordinate a of point r times 127,
    truncated toward zero. -/
theorem pay2_apply (x : Vec Ideal S1x4096x2 .f32) (r : Fin 4096) (a : Fin 2) :
    k0_pay2 (F := Ideal) x (ix2 r a) = Ideal.fptosi 32 (x (ix3 (0 : Fin 1) r a) * c127) := by
  unfold k0_pay2
  show Ideal.fptosi 32 (shapeCast S4096x2 x _ (ix2 r a) * c127) = _
  have e : shapeCast S4096x2 x Facts₀.shapeCasts_S1x4096x2_S4096x2 (ix2 r a) = x (ix3 (0 : Fin 1) r a) := by
    refine (shapeCast_dropUnit_apply ![4096, 2] x _ (ix2 r a)).trans ?_
    refine congrArg x (funext fun d => ?_)
    match d with
    | ⟨0, _⟩ => rfl
    | ⟨1, _⟩ => rfl
    | ⟨2, _⟩ => rfl
  rw [e]

/-- The quantized chunk, stored back as [1, 4096, 2]. -/
theorem pay3_apply (x : Vec Ideal S1x4096x2 .f32) (r : Fin 4096) (a : Fin 2) :
    k0_pay3 (F := Ideal) x (ix3 (0 : Fin 1) r a) = Ideal.fptosi 32 (x (ix3 (0 : Fin 1) r a) * c127) := by
  unfold k0_pay3
  refine (shapeCast_addUnit_apply ![4096, 2] (k0_pay2 (F := Ideal) x) _ (ix3 (0 : Fin 1) r a)).trans ?_
  refine Eq.trans (congrArg (k0_pay2 (F := Ideal) x) (funext fun d => ?_)) (pay2_apply x r a)
  match d with
  | ⟨0, _⟩ => rfl
  | ⟨1, _⟩ => rfl

/-- The final conversion of the block to 32-bit words, as [1, 128, 128]. -/
theorem pay5_apply (v : Vec Ideal S128x128 .f32) (h w : Fin 128) :
    k0_pay5 (F := Ideal) v (ix3 (0 : Fin 1) h w) = Ideal.fptosi 32 (v (ix2 h w)) := by
  unfold k0_pay5
  refine (shapeCast_addUnit_apply ![128, 128] _ _ (ix3 (0 : Fin 1) h w)).trans ?_
  show Ideal.fptosi 32 (v _) = _
  refine congrArg (fun k => Ideal.fptosi 32 (v k)) (funext fun d => ?_)
  match d with
  | ⟨0, _⟩ => rfl
  | ⟨1, _⟩ => rfl

/-- A count below 2 ^ 31 converts exactly: it is its own floor and lies inside the clamp's range. -/
theorem fptosi_natCast (n : ℕ) (hn : n < 2 ^ 31) : Ideal.fptosi 32 (((n : ℕ) : ℝ) : EReal) = BitVec.ofNat 32 n := by
  unfold Ideal.fptosi
  rw [Ideal.toIntClamped_coe]
  have h0 : (0 : ℝ) ≤ (n : ℝ) := Nat.cast_nonneg n
  rw [if_pos h0, Int.floor_natCast]
  have h1 : max (-((2 ^ (32 - 1) : ℕ) : ℤ)) (min (((2 ^ (32 - 1) : ℕ) : ℤ) - 1) (n : ℤ)) = (n : ℤ) := by
    have : ((2 ^ (32 - 1) : ℕ) : ℤ) = 2147483648 := by norm_num
    rw [this]
    omega
  rw [h1]
  exact BitVec.ofInt_natCast 32 n

end Cert.Hist

end
-- ==== Proof.OutPieces.lean ====
/-
  The pieces the body's loop stores into the tile's output, and what they read back as.

  Trip k of the loop stores, at points 4096·k, …, 4096·k + 4095 of the tile's output, the chunk it
  loads there quantized coordinate by coordinate.  So every piece the loop leaves is a block of ONE
  function of the tile's index, the tile quantized coordinate by coordinate; a list of such pieces
  that covers the tile therefore reads back as that function, however many pieces there are and in
  whatever order.
-/
import proofs.«174894_j446676598908_2_alg».proof.Proof.TripChunk
import proofs.«174894_j446676598908_2_alg».proof.Proof.ChunkQuant
import proofs.«174894_j446676598908_2_alg».proof.Proof.Gen.KernelIdeal.Frame.Runs
import Idealize.ShloMosaic.Lib.Pipeline.Value

noncomputable section

namespace Cert.Hist

open Idealize.ShloMosaic Idealize.ShloMosaic.ValueIdx Idealize.SL.Sem
open Cert.KernelIdeal Cert.KernelIdeal.Gen

variable [Cert.KernelIdeal.Facts]
variable {F : FTy → Type} [FloatOps F]

/-- The piece trip k stores into the tile's output: at the trip's 4096 points, the quantized chunk it loads. -/
abbrev outPiece (arg2 : Memref sig .tc .vmem S1x8192x2 .f32) (X : BufTy.Contents (Elt F) arg2.view.ty) (k : Fin k0_t1_loop.trips) :
    View.Piece (Elt F) S1x8192x2 .i32 :=
  ⟨Rect.unit (s := S1x8192x2) (k0_off1 k) S1x4096x2.size (Facts₀.k0_off1_inb k),
    k0_pay3 (F := F) (View.readAt (Elt F) arg2.view (Rect.unit (s := S1x8192x2) (k0_off1 k) S1x4096x2.size (Facts₀.k0_off1_inb k)).toLoadRect X)⟩

/-- Every piece the trips before `n` leave in the tile's output is some trip's piece. -/
theorem pb_out_form (𝒱 : Variants) (c : Dev nD) (bd : Option 𝒱.V) (i : grid0.Coords)
    (arg2 : Memref sig .tc .vmem S1x8192x2 .f32) (harg2 : arg2.IsWhole) (arg3 : Memref sig .tc .vmem S1x8192x2 .i32) (harg3 : arg3.IsWhole)
    (arg4 : Memref sig .tc .vmem S1x128x128 .i32) (harg4 : arg4.IsWhole) (arg5 : Memref sig .tc .vmem S128x128 .f32) (harg5 : arg5.IsWhole)
    (X : BufTy.Contents (Elt F) arg2.view.ty) (G3 : BufTy.Contents (Elt F) arg3.view.ty) (G5 : BufTy.Contents (Elt F) arg5.view.ty) (n : ℕ) :
    ∀ p ∈ (pb_k0_t1 (F := F) 𝒱 c bd i arg2 harg2 arg3 harg3 arg4 harg4 arg5 harg5 X G3 G5 n).1,
      ∃ k : Fin k0_t1_loop.trips, p = outPiece arg2 X k := by
  induction n with
  | zero => intro p hp; exact absurd hp List.not_mem_nil
  | succ n ih =>
    rw [pb_k0_t1.eq_2]
    unfold pb_k0_t1Step
    by_cases h : n < k0_t1_loop.trips
    · rw [dif_pos h]
      intro p hp
      rcases List.mem_append.1 hp with hp | hp
      · have hp' : p ∈ (trip_k0_t1 (F := F) 𝒱 c bd i arg2 harg2 arg3 harg3 arg4 harg4 arg5 harg5 X ⟨n, h⟩).1
            (arg3.view.writes (Elt F) G3 (pb_k0_t1 (F := F) 𝒱 c bd i arg2 harg2 arg3 harg3 arg4 harg4 arg5 harg5 X G3 G5 n).1)
            (arg5.view.writes (Elt F) G5 (pb_k0_t1 (F := F) 𝒱 c bd i arg2 harg2 arg3 harg3 arg4 harg4 arg5 harg5 X G3 G5 n).2) := hp
        rw [trip_out_pieces] at hp'
        exact ⟨⟨n, h⟩, List.mem_singleton.1 hp'⟩
      · exact ih p hp
    · rw [dif_neg h]; exact ih

/-- Point (0, r, a) of the rectangle of trip k is point (0, 4096·k + r, a) of the tile. -/
theorem out_rect_emb (k : Fin k0_t1_loop.trips) (r : Fin 4096) (a : Fin 2) :
    (Rect.unit (s := S1x8192x2) (k0_off1 k) S1x4096x2.size (Facts₀.k0_off1_inb k)).emb (ix3 (0 : Fin 1) r a)
      = ix3 (0 : Fin 1) ⟨4096 * k.val + r.val, by have := r.isLt; have := trip_lt_two k; omega⟩ a := by
  funext d
  apply Fin.ext
  have ho := congrFun (k0_off1_eq k)
  match d with
  | ⟨0, _⟩ =>
    show k0_off1 k 0 + 1 * 0 = 0
    rw [ho 0]; rfl
  | ⟨1, _⟩ =>
    show k0_off1 k 1 + 1 * r.val = 4096 * k.val + r.val
    rw [ho 1]; show 4096 * k.val + 1 * r.val = _; omega
  | ⟨2, _⟩ =>
    show k0_off1 k 2 + 1 * a.val = a.val
    rw [ho 2]; show 0 + 1 * a.val = _; omega

/-- An index of a chunk is (0, r, a) for a point r and a coordinate a. -/
theorem idx_4096_split (x : S1x4096x2.Idx) : ∃ (r : Fin 4096) (a : Fin 2), x = ix3 (0 : Fin 1) r a := by
  refine ⟨x 1, x 2, ?_⟩
  have h0 : ∀ z : Fin 1, z = (0 : Fin 1) := fun z => Subsingleton.elim _ _
  funext d
  match d with
  | ⟨0, _⟩ => exact h0 (x 0)
  | ⟨1, _⟩ => rfl
  | ⟨2, _⟩ => rfl

/-- At the ideal values, with the tile's buffer reading as x0, trip k's piece is a block of the tile quantized
    coordinate by coordinate. -/
theorem outPiece_eq (arg2 : Memref sig .tc .vmem S1x8192x2 .f32) (harg2 : arg2.IsWhole) (x0 : Vec Ideal S1x8192x2 .f32)
    (k : Fin k0_t1_loop.trips) (x : S1x4096x2.Idx) :
    (outPiece (F := Ideal) arg2 (harg2.unread x0) k).2 x
      = (fun y : S1x8192x2.Idx => Ideal.fptosi 32 (x0 y * c127)) ((outPiece (F := Ideal) arg2 (harg2.unread x0) k).1.emb x) := by
  obtain ⟨r, a, rfl⟩ := idx_4096_split x
  show k0_pay3 (F := Ideal) _ (ix3 (0 : Fin 1) r a) = Ideal.fptosi 32 (x0 ((Rect.unit (s := S1x8192x2) (k0_off1 k) S1x4096x2.size (Facts₀.k0_off1_inb k)).emb (ix3 (0 : Fin 1) r a)) * c127)
  rw [loaded_chunk_eq, pay3_apply, out_rect_emb, chunk_apply]

/-- A covering list of trips' pieces reads back as the tile quantized coordinate by coordinate. -/
theorem out1_of_pieces (arg2 : Memref sig .tc .vmem S1x8192x2 .f32) (harg2 : arg2.IsWhole) (x0 : Vec Ideal S1x8192x2 .f32)
    (L : List (View.Piece (Elt Ideal) S1x8192x2 .i32))
    (hform : ∀ p ∈ L, ∃ k : Fin k0_t1_loop.trips, p = outPiece (F := Ideal) arg2 (harg2.unread x0) k)
    (hcover : ∀ y : S1x8192x2.Idx, ∃ pc ∈ L, y ∈ pc.1.set) :
    VO0_1.read (Elt Ideal) (VO0_1.writes (Elt Ideal) VO0_1.junk L) = fun y => Ideal.fptosi 32 (x0 y * c127) := by
  rw [View.read_writes_eq_canon _ _ _ hcover]
  funext y
  refine View.canon_apply_of_pieces (fun y : S1x8192x2.Idx => Ideal.fptosi 32 (x0 y * c127)) L ?_ y (hcover y)
  intro p hp x
  obtain ⟨k, rfl⟩ := hform p hp
  exact outPiece_eq arg2 harg2 x0 k x

end Cert.Hist

end
-- ==== Proof.KernelOut1.lean ====
/-
  What each case of the kernel body leaves in the first output's buffer: the tile quantized.

  In each of its three cases the body's stores into the first output are the stores of its loop's
  trips, and they cover the tile.  Every such piece is a block of the tile quantized coordinate by
  coordinate, so the buffer reads back as that function.
-/
import proofs.«174894_j446676598908_2_alg».proof.Proof.GenP.KernelIdeal.Frame
import proofs.«174894_j446676598908_2_alg».proof.Proof.OutPieces

set_option maxRecDepth 16384

noncomputable section

namespace Cert.Hist

open Idealize.ShloMosaic Idealize.ShloMosaic.ValueIdx Idealize.SL.Sem
open Cert.KernelIdeal Cert.KernelIdeal.Gen Cert.KernelIdeal.GenP

variable [Cert.KernelIdeal.Facts]

/-- Case A (a batch's first tile): the first output's buffer holds the tile quantized coordinate by coordinate. -/
theorem out1_A (c : Dev nD) (i : grid0.Coords) (arg2 : Memref sig .tc .vmem S1x8192x2 .f32) (harg2 : arg2.IsWhole) (arg3 : Memref sig .tc .vmem S1x8192x2 .i32) (harg3 : arg3.IsWhole) (arg4 : Memref sig .tc .vmem S1x128x128 .i32) (harg4 : arg4.IsWhole) (arg5 : Memref sig .tc .vmem S128x128 .f32) (harg5 : arg5.IsWhole) (hc0 : cond0_0 i) (hc1 : ¬cond0_1 i)
    (x0 : Vec Ideal S1x8192x2 .f32) :
    out0_A_1 (F := Ideal) c i arg2 harg2 arg3 harg3 arg4 harg4 arg5 harg5 hc0 hc1 x0 = fun y => Ideal.fptosi 32 (x0 y * c127) := by
  unfold out0_A_1
  refine out1_of_pieces arg2 harg2 x0 _ ?_ (cover0_A_1 c i arg2 harg2 arg3 harg3 arg4 harg4 arg5 harg5 hc0 hc1 x0)
  unfold kernelRun0_A
  dsimp only
  exact pb_out_form Variants.none c none i arg2 harg2 arg3 harg3 arg4 harg4 arg5 harg5 (harg2.unread x0) _ _ _

/-- Case B (a tile that is neither a batch's first nor its last): the same. -/
theorem out1_B (c : Dev nD) (i : grid0.Coords) (arg2 : Memref sig .tc .vmem S1x8192x2 .f32) (harg2 : arg2.IsWhole) (arg3 : Memref sig .tc .vmem S1x8192x2 .i32) (harg3 : arg3.IsWhole) (arg4 : Memref sig .tc .vmem S1x128x128 .i32) (harg4 : arg4.IsWhole) (arg5 : Memref sig .tc .vmem S128x128 .f32) (harg5 : arg5.IsWhole) (hc0 : ¬cond0_0 i) (hc1 : ¬cond0_1 i)
    (x0 : Vec Ideal S1x8192x2 .f32) (xs0 : Vec Ideal S128x128 .f32) :
    out0_B_1 (F := Ideal) c i arg2 harg2 arg3 harg3 arg4 harg4 arg5 harg5 hc0 hc1 x0 xs0 = fun y => Ideal.fptosi 32 (x0 y * c127) := by
  unfold out0_B_1
  refine out1_of_pieces arg2 harg2 x0 _ ?_ (cover0_B_1 c i arg2 harg2 arg3 harg3 arg4 harg4 arg5 harg5 hc0 hc1 x0 xs0)
  unfold kernelRun0_B
  dsimp only
  exact pb_out_form Variants.none c none i arg2 harg2 arg3 harg3 arg4 harg4 arg5 harg5 (harg2.unread x0) _ _ _

/-- Case C (a batch's last tile): the same. -/
theorem out1_C (c : Dev nD) (i : grid0.Coords) (arg2 : Memref sig .tc .vmem S1x8192x2 .f32) (harg2 : arg2.IsWhole) (arg3 : Memref sig .tc .vmem S1x8192x2 .i32) (harg3 : arg3.IsWhole) (arg4 : Memref sig .tc .vmem S1x128x128 .i32) (harg4 : arg4.IsWhole) (arg5 : Memref sig .tc .vmem S128x128 .f32) (harg5 : arg5.IsWhole) (hc0 : ¬cond0_0 i) (hc1 : cond0_1 i)
    (x0 : Vec Ideal S1x8192x2 .f32) (xs0 : Vec Ideal S128x128 .f32) :
    out0_C_1 (F := Ideal) c i arg2 harg2 arg3 harg3 arg4 harg4 arg5 harg5 hc0 hc1 x0 xs0 = fun y => Ideal.fptosi 32 (x0 y * c127) := by
  unfold out0_C_1
  refine out1_of_pieces arg2 harg2 x0 _ ?_ (cover0_C_1 c i arg2 harg2 arg3 harg3 arg4 harg4 arg5 harg5 hc0 hc1 x0 xs0)
  unfold kernelRun0_C
  dsimp only
  exact pb_out_form Variants.none c none i arg2 harg2 arg3 harg3 arg4 harg4 arg5 harg5 (harg2.unread x0) _ _ _

end Cert.Hist

end
-- ==== Proof.KernelQuant.lean ====
/-
  The kernel's first output is the quantized input.

  At every point of the grid the kernel stores into the first output's block the input's block quantized entry by
  entry (127 times the entry, truncated toward zero, as a 32-bit word), whichever of its three cases runs there.  The
  input's block and the first output's block at a point sit at the same place of their arrays, so what a point writes
  back is the quantized input array read through the point's block; and the blocks of the points, all written back,
  cover the array.  Hence after the run the first output's array is the quantized input array.
-/
import proofs.«174894_j446676598908_2_alg».proof.Proof.GenP.KernelIdeal.Value
import proofs.«174894_j446676598908_2_alg».proof.Proof.HistSpec
import proofs.«174894_j446676598908_2_alg».proof.Proof.BlockGeometry
import proofs.«174894_j446676598908_2_alg».proof.Proof.KernelOut1

set_option maxRecDepth 16384

noncomputable section

namespace Cert.Hist

open Cert.KernelIdeal Cert.KernelIdeal.Gen Cert.KernelIdeal.GenP Cert.KernelIdeal.ValueP Idealize.ShloMosaic Idealize.ShloMosaic.TcCoe Idealize.SL.Sem
open Idealize.ShloMosaic.Pipeline (Dat)

variable (m : (ℓ : Loc nD τ sig) → Buf (Elt Ideal) ℓ) (c : Dev nD)

/-- The input's block and the first output's block at a point sit at the same place of their arrays. -/
theorem emb0_eq_emb1 (t : Fin cfg0.N) (y : S1x8192x2.Idx) :
    ((cfg0.win 0).blk t).view.emb y = ((cfg0.win 1).blk t).view.emb y := by
  obtain ⟨a0, a1, a2⟩ := emb0_val t y
  obtain ⟨b0, b1, b2⟩ := emb1_val t y
  funext a
  apply Fin.ext
  match a with
  | ⟨0, _⟩ => exact a0.trans b0.symm
  | ⟨1, _⟩ => exact a1.trans b1.symm
  | ⟨2, _⟩ => exact a2.trans b2.symm

/-- An array read at an index of the input's block and quantized is the quantized array read at the same index of
    the first output's block. -/
theorem quant_at_block (t : Fin cfg0.N) (G : S16x1048576x2.Idx → EReal) (j : S1x8192x2.Idx) :
    Ideal.fptosi 32 (G (((cfg0.win 0).blk t).view.emb j) * c127) = quant G (((cfg0.win 1).blk t).view.emb j) := by
  rw [emb0_eq_emb1 t j]
  rfl

/-- The input's block at a point, quantized entry by entry, is the quantized input array read through the first
    output's block at that point. -/
theorem quant_block (t : Fin cfg0.N) (x0 : Vec Ideal S1x8192x2 .f32) (hx : x0 = iblk m c 0 t) :
    (fun y => Ideal.fptosi 32 (x0 y * c127))
      = ((cfg0.win 1).blk t).view.read (Elt Ideal) (quant (V m c main_arg0)) := by
  subst hx
  funext j
  exact quant_at_block t (V m c main_arg0) j

/-- What a point writes back to the first output is the quantized input array read through the point's block:
    whichever of the three cases runs at the point, the first output's block is the input's block quantized. -/
theorem flushed1_eq (t : Fin cfg0.N) :
    (dats m 0 c).flushed 1 t = ((cfg0.win 1).blk t).view.read (Elt Ideal) (quant (V m c main_arg0)) := by
  by_cases h0 : t.val % 128 = 0
  · have h1 : ¬ t.val % 128 = 127 := by omega
    rw [flushed1_A m c t h0 h1,
      out1_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t)]
    exact quant_block m c t (iblk m c 0 t) rfl
  · by_cases h1 : t.val % 128 = 127
    · rw [flushed1_C m c t h0 h1,
        out1_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2.2]
      exact quant_block m c t (iblk m c 0 t) rfl
    · rw [flushed1_B m c t h0 h1,
        out1_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.2]
      exact quant_block m c t (iblk m c 0 t) rfl

/-- After the run the first output's array is the quantized input array: every index lies in the block of a point
    that writes it back, and each such point writes back the quantized input read through its block. -/
theorem final1 : (dats m 0 c).arrAt 1 cfg0.N = quant (m ((c : Thread nD τ).loc main_arg0)) :=
  (dats m 0 c).arrAt_eq_of_cover 1 (quant (V m c main_arg0)) (fun t _ => flushed1_eq m c t) cover1

end Cert.Hist

end
-- ==== Proof.WholeStore.lean ====
/-
  A buffer whose last store wrote the whole block reads as that store's payload.

  The stores into a buffer are kept as a list of pieces, the last store first. When the first piece of the
  list is a store through the whole-shape rectangle (offsets all zero, the shape's own extents), every index is
  covered by it, so what the buffer reads afterwards is its payload — whatever the earlier stores and the prior
  contents were, and through whichever view of the shape the contents are read.
-/
import Idealize.ShloMosaic.Lib.Pipeline.Value

noncomputable section

namespace Cert.Hist

open Idealize.ShloMosaic

variable {sig : RefSig} {κ : Kind} {sp : Space} {S : Shape} {e : EltTy} {Val : EltTy → Type} [∀ e, Nonempty (Val e)]

/-- After stores whose last one wrote the whole block, the buffer reads as that store's payload. -/
theorem read_writes_cons_whole (v : View sig κ sp S e) (f : v.ty.Contents Val) {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

/-- The offsets `![0, 0]` are all zero. -/
theorem zero2 : (![0, 0] : Fin 2 → Nat) = fun _ => 0 := funext fun a => by fin_cases a <;> rfl

/-- The offsets `![0, 0, 0]` are all zero. -/
theorem zero3 : (![0, 0, 0] : Fin 3 → Nat) = fun _ => 0 := funext fun a => by fin_cases a <;> rfl

end Cert.Hist

end
-- ==== Proof.TripTwo.lean ====
/-
  The body's loop written out: its two trips, one after the other.

  The loop makes exactly two trips.  The stores it leaves are, last first: for the quantized points,
  the second chunk's store and then the first's; for the running 128 × 128 block, two stores of the
  whole block.  Each trip reads the block the trip before stored (the first trip, the block the loop
  began with) and stores it back with its chunk's counts added.  A store of the whole block hides
  everything stored before it, so after the loop the block reads as: what it held when the loop
  began, plus the first chunk's counts, plus the second chunk's counts.
-/
import proofs.«174894_j446676598908_2_alg».proof.Proof.TripPieces
import proofs.«174894_j446676598908_2_alg».proof.Proof.WholeStore

noncomputable section

namespace Cert.Hist

open Idealize.ShloMosaic Idealize.ShloMosaic.ValueIdx Idealize.SL.Sem
open Cert.KernelIdeal Cert.KernelIdeal.Gen

variable [Cert.KernelIdeal.Facts]
variable {F : FTy → Type} [FloatOps F]

/-- The loop makes exactly two trips. -/
theorem trips_two : Scf.trips k0_t1_loop.lb k0_t1_loop.ub k0_t1_loop.st = 2 := by decide

/-- The first trip. -/
abbrev trip0 : Fin k0_t1_loop.trips := ⟨0, by decide⟩
/-- The second trip. -/
abbrev trip1 : Fin k0_t1_loop.trips := ⟨1, by decide⟩

/-- Before the first trip nothing has been stored. -/
theorem pb_zero (𝒱 : Variants) (c : Dev nD) (bd : Option 𝒱.V) (i : grid0.Coords) (arg2 : Memref sig .tc .vmem S1x8192x2 .f32) (harg2 : arg2.IsWhole) (arg3 : Memref sig .tc .vmem S1x8192x2 .i32) (harg3 : arg3.IsWhole) (arg4 : Memref sig .tc .vmem S1x128x128 .i32) (harg4 : arg4.IsWhole) (arg5 : Memref sig .tc .vmem S128x128 .f32) (harg5 : arg5.IsWhole) (X : BufTy.Contents (Elt F) arg2.view.ty) (G3 : BufTy.Contents (Elt F) arg3.view.ty) (G5 : BufTy.Contents (Elt F) arg5.view.ty) :
    pb_k0_t1 (F := F) 𝒱 c bd i arg2 harg2 arg3 harg3 arg4 harg4 arg5 harg5 X G3 G5 0 = ([], []) := rfl

/-- After the first trip: the first chunk quantized, and the block the loop began with plus the first
    chunk's counts. -/
theorem pb_one (𝒱 : Variants) (c : Dev nD) (bd : Option 𝒱.V) (i : grid0.Coords) (arg2 : Memref sig .tc .vmem S1x8192x2 .f32) (harg2 : arg2.IsWhole) (arg3 : Memref sig .tc .vmem S1x8192x2 .i32) (harg3 : arg3.IsWhole) (arg4 : Memref sig .tc .vmem S1x128x128 .i32) (harg4 : arg4.IsWhole) (arg5 : Memref sig .tc .vmem S128x128 .f32) (harg5 : arg5.IsWhole) (X : BufTy.Contents (Elt F) arg2.view.ty) (G3 : BufTy.Contents (Elt F) arg3.view.ty) (G5 : BufTy.Contents (Elt F) arg5.view.ty) :
    pb_k0_t1 (F := F) 𝒱 c bd i arg2 harg2 arg3 harg3 arg4 harg4 arg5 harg5 X G3 G5 1
      = ([⟨Rect.unit (s := S1x8192x2) (k0_off1 trip0) S1x4096x2.size (Facts₀.k0_off1_inb trip0), k0_pay3 (F := F) (View.readAt (Elt F) arg2.view (Rect.unit (s := S1x8192x2) (k0_off1 trip0) S1x4096x2.size (Facts₀.k0_off1_inb trip0)).toLoadRect X)⟩],
         [⟨Rect.unit (s := S128x128) ![0, 0] S128x128.size Facts₀.inb_S128x128_S128x128_0_0, (k0_pay4 (F := F) (View.readAt (Elt F) arg2.view (Rect.unit (s := S1x8192x2) (k0_off1 trip0) S1x4096x2.size (Facts₀.k0_off1_inb trip0)).toLoadRect X) (arg5.view.read (Elt F) G5))⟩]) := by
  have e := pb_k0_t1_succ (F := F) 𝒱 c bd i arg2 harg2 arg3 harg3 arg4 harg4 arg5 harg5 X G3 G5 trip0
  have e' : pb_k0_t1 (F := F) 𝒱 c bd i arg2 harg2 arg3 harg3 arg4 harg4 arg5 harg5 X G3 G5 1 = _ := e
  rw [e', pb_zero]
  dsimp only [tripL_k0_t1]
  rw [trip_out_pieces, trip_scratch_pieces, loaded_scratch_read]
  rfl

/-- After both trips: the two chunks quantized, last first, and the block stored by each trip, last
    first; the last holds what the loop began with plus the first chunk's and then the second
    chunk's counts. -/
theorem pb_two (𝒱 : Variants) (c : Dev nD) (bd : Option 𝒱.V) (i : grid0.Coords) (arg2 : Memref sig .tc .vmem S1x8192x2 .f32) (harg2 : arg2.IsWhole) (arg3 : Memref sig .tc .vmem S1x8192x2 .i32) (harg3 : arg3.IsWhole) (arg4 : Memref sig .tc .vmem S1x128x128 .i32) (harg4 : arg4.IsWhole) (arg5 : Memref sig .tc .vmem S128x128 .f32) (harg5 : arg5.IsWhole) (X : BufTy.Contents (Elt F) arg2.view.ty) (G3 : BufTy.Contents (Elt F) arg3.view.ty) (G5 : BufTy.Contents (Elt F) arg5.view.ty) :
    pb_k0_t1 (F := F) 𝒱 c bd i arg2 harg2 arg3 harg3 arg4 harg4 arg5 harg5 X G3 G5 2
      = ([⟨Rect.unit (s := S1x8192x2) (k0_off1 trip1) S1x4096x2.size (Facts₀.k0_off1_inb trip1), k0_pay3 (F := F) (View.readAt (Elt F) arg2.view (Rect.unit (s := S1x8192x2) (k0_off1 trip1) S1x4096x2.size (Facts₀.k0_off1_inb trip1)).toLoadRect X)⟩,
          ⟨Rect.unit (s := S1x8192x2) (k0_off1 trip0) S1x4096x2.size (Facts₀.k0_off1_inb trip0), k0_pay3 (F := F) (View.readAt (Elt F) arg2.view (Rect.unit (s := S1x8192x2) (k0_off1 trip0) S1x4096x2.size (Facts₀.k0_off1_inb trip0)).toLoadRect X)⟩],
         [⟨Rect.unit (s := S128x128) ![0, 0] S128x128.size Facts₀.inb_S128x128_S128x128_0_0, (k0_pay4 (F := F) (View.readAt (Elt F) arg2.view (Rect.unit (s := S1x8192x2) (k0_off1 trip1) S1x4096x2.size (Facts₀.k0_off1_inb trip1)).toLoadRect X) (k0_pay4 (F := F) (View.readAt (Elt F) arg2.view (Rect.unit (s := S1x8192x2) (k0_off1 trip0) S1x4096x2.size (Facts₀.k0_off1_inb trip0)).toLoadRect X) (arg5.view.read (Elt F) G5)))⟩,
          ⟨Rect.unit (s := S128x128) ![0, 0] S128x128.size Facts₀.inb_S128x128_S128x128_0_0, (k0_pay4 (F := F) (View.readAt (Elt F) arg2.view (Rect.unit (s := S1x8192x2) (k0_off1 trip0) S1x4096x2.size (Facts₀.k0_off1_inb trip0)).toLoadRect X) (arg5.view.read (Elt F) G5))⟩]) := by
  have e := pb_k0_t1_succ (F := F) 𝒱 c bd i arg2 harg2 arg3 harg3 arg4 harg4 arg5 harg5 X G3 G5 trip1
  have e' : pb_k0_t1 (F := F) 𝒱 c bd i arg2 harg2 arg3 harg3 arg4 harg4 arg5 harg5 X G3 G5 2 = _ := e
  rw [e']
  have e1 : pb_k0_t1 (F := F) 𝒱 c bd i arg2 harg2 arg3 harg3 arg4 harg4 arg5 harg5 X G3 G5 (trip1 : Fin k0_t1_loop.trips).val = _ := pb_one (F := F) 𝒱 c bd i arg2 harg2 arg3 harg3 arg4 harg4 arg5 harg5 X G3 G5
  rw [e1]
  dsimp only [tripL_k0_t1]
  rw [trip_out_pieces, trip_scratch_pieces, loaded_scratch_read,
    read_writes_cons_whole arg5.view G5 zero2 Facts₀.inb_S128x128_S128x128_0_0]
  rfl

/-- The quantized points the loop stores: the second chunk's store, then the first's. -/
theorem pb_out_two (𝒱 : Variants) (c : Dev nD) (bd : Option 𝒱.V) (i : grid0.Coords) (arg2 : Memref sig .tc .vmem S1x8192x2 .f32) (harg2 : arg2.IsWhole) (arg3 : Memref sig .tc .vmem S1x8192x2 .i32) (harg3 : arg3.IsWhole) (arg4 : Memref sig .tc .vmem S1x128x128 .i32) (harg4 : arg4.IsWhole) (arg5 : Memref sig .tc .vmem S128x128 .f32) (harg5 : arg5.IsWhole) (X : BufTy.Contents (Elt F) arg2.view.ty) (G3 : BufTy.Contents (Elt F) arg3.view.ty) (G5 : BufTy.Contents (Elt F) arg5.view.ty) :
    (pb_k0_t1 (F := F) 𝒱 c bd i arg2 harg2 arg3 harg3 arg4 harg4 arg5 harg5 X G3 G5 (Scf.trips k0_t1_loop.lb k0_t1_loop.ub k0_t1_loop.st)).1
      = [⟨Rect.unit (s := S1x8192x2) (k0_off1 trip1) S1x4096x2.size (Facts₀.k0_off1_inb trip1), k0_pay3 (F := F) (View.readAt (Elt F) arg2.view (Rect.unit (s := S1x8192x2) (k0_off1 trip1) S1x4096x2.size (Facts₀.k0_off1_inb trip1)).toLoadRect X)⟩,
         ⟨Rect.unit (s := S1x8192x2) (k0_off1 trip0) S1x4096x2.size (Facts₀.k0_off1_inb trip0), k0_pay3 (F := F) (View.readAt (Elt F) arg2.view (Rect.unit (s := S1x8192x2) (k0_off1 trip0) S1x4096x2.size (Facts₀.k0_off1_inb trip0)).toLoadRect X)⟩] := by
  rw [trips_two, pb_two]

/-- The running block after the loop, read through any view of the 128 × 128 shape, over any prior
    contents and any earlier stores: the second chunk's counts added to the first's added to what
    the block held when the loop began. -/
theorem pb_scratch_read_two_append {sig' : RefSig} {κ' : Kind} {sp' : Space} (v : View sig' κ' sp' S128x128 .f32) (G : v.ty.Contents (Elt F))
    (L : List (View.Piece (Elt F) S128x128 .f32)) (𝒱 : Variants) (c : Dev nD) (bd : Option 𝒱.V) (i : grid0.Coords) (arg2 : Memref sig .tc .vmem S1x8192x2 .f32) (harg2 : arg2.IsWhole) (arg3 : Memref sig .tc .vmem S1x8192x2 .i32) (harg3 : arg3.IsWhole) (arg4 : Memref sig .tc .vmem S1x128x128 .i32) (harg4 : arg4.IsWhole) (arg5 : Memref sig .tc .vmem S128x128 .f32) (harg5 : arg5.IsWhole) (X : BufTy.Contents (Elt F) arg2.view.ty) (G3 : BufTy.Contents (Elt F) arg3.view.ty) (G5 : BufTy.Contents (Elt F) arg5.view.ty) :
    v.read (Elt F) (v.writes (Elt F) G ((pb_k0_t1 (F := F) 𝒱 c bd i arg2 harg2 arg3 harg3 arg4 harg4 arg5 harg5 X G3 G5 (Scf.trips k0_t1_loop.lb k0_t1_loop.ub k0_t1_loop.st)).2 ++ L))
      = (k0_pay4 (F := F) (View.readAt (Elt F) arg2.view (Rect.unit (s := S1x8192x2) (k0_off1 trip1) S1x4096x2.size (Facts₀.k0_off1_inb trip1)).toLoadRect X) (k0_pay4 (F := F) (View.readAt (Elt F) arg2.view (Rect.unit (s := S1x8192x2) (k0_off1 trip0) S1x4096x2.size (Facts₀.k0_off1_inb trip0)).toLoadRect X) (arg5.view.read (Elt F) G5))) := by
  rw [trips_two, pb_two]
  exact read_writes_cons_whole v G zero2 Facts₀.inb_S128x128_S128x128_0_0 _ _

/-- The same with no earlier stores. -/
theorem pb_scratch_read_two {sig' : RefSig} {κ' : Kind} {sp' : Space} (v : View sig' κ' sp' S128x128 .f32) (G : v.ty.Contents (Elt F))
    (𝒱 : Variants) (c : Dev nD) (bd : Option 𝒱.V) (i : grid0.Coords) (arg2 : Memref sig .tc .vmem S1x8192x2 .f32) (harg2 : arg2.IsWhole) (arg3 : Memref sig .tc .vmem S1x8192x2 .i32) (harg3 : arg3.IsWhole) (arg4 : Memref sig .tc .vmem S1x128x128 .i32) (harg4 : arg4.IsWhole) (arg5 : Memref sig .tc .vmem S128x128 .f32) (harg5 : arg5.IsWhole) (X : BufTy.Contents (Elt F) arg2.view.ty) (G3 : BufTy.Contents (Elt F) arg3.view.ty) (G5 : BufTy.Contents (Elt F) arg5.view.ty) :
    v.read (Elt F) (v.writes (Elt F) G (pb_k0_t1 (F := F) 𝒱 c bd i arg2 harg2 arg3 harg3 arg4 harg4 arg5 harg5 X G3 G5 (Scf.trips k0_t1_loop.lb k0_t1_loop.ub k0_t1_loop.st)).2)
      = (k0_pay4 (F := F) (View.readAt (Elt F) arg2.view (Rect.unit (s := S1x8192x2) (k0_off1 trip1) S1x4096x2.size (Facts₀.k0_off1_inb trip1)).toLoadRect X) (k0_pay4 (F := F) (View.readAt (Elt F) arg2.view (Rect.unit (s := S1x8192x2) (k0_off1 trip0) S1x4096x2.size (Facts₀.k0_off1_inb trip0)).toLoadRect X) (arg5.view.read (Elt F) G5))) := by
  rw [trips_two, pb_two]
  exact read_writes_cons_whole v G zero2 Facts₀.inb_S128x128_S128x128_0_0 _ _

end Cert.Hist

end
-- ==== Proof.KernelCases.lean ====
/-
  What each case of the kernel body leaves in the running 128 × 128 block and in output 2's buffer.

  The body runs in three cases. On a batch's first tile it zeroes the running block; on every tile its loop makes two
  trips, trip k adding to the block the histogram of chunk k (4096 points) of the tile; on a batch's last tile it then
  converts the block to 32-bit words and stores them as output 2's block. So after a first tile the running block is
  hist(chunk 1) + (hist(chunk 0) + 0), after any other tile hist(chunk 1) + (hist(chunk 0) + what the tile before
  left), and on a last tile output 2's buffer holds that block converted to words.
-/
import proofs.«174894_j446676598908_2_alg».proof.Proof.GenP.KernelIdeal.Frame
import proofs.«174894_j446676598908_2_alg».proof.Proof.TripTwo
import proofs.«174894_j446676598908_2_alg».proof.Proof.TripChunk
import proofs.«174894_j446676598908_2_alg».proof.Proof.WholeStore

set_option maxRecDepth 16384

noncomputable section

namespace Cert.Hist

open Cert.KernelIdeal Cert.KernelIdeal.Gen Cert.KernelIdeal.GenP Idealize.ShloMosaic Idealize.ShloMosaic.TcCoe Idealize.ShloMosaic.Tactic

variable [Cert.KernelIdeal.Facts] {F : FTy → Type} [FloatOps F]

/-- A whole buffer holding `a0` reads `a0` through its view. -/
theorem read_unread_whole {s : Shape} {e : EltTy} (a : Memref sig .tc .vmem s e) (ha : a.IsWhole) (a0 : s.Idx → Elt F e) :
    a.view.read (Elt F) (ha.unread a0) = a0 := ha.read_unread a0

/-! ## The running block -/

/-- After a batch's first tile: the two chunks' histograms added to the zero block. -/
theorem scratch_A (c : Dev nD) (i : grid0.Coords) (arg2 : Memref sig .tc .vmem S1x8192x2 .f32) (harg2 : arg2.IsWhole) (arg3 : Memref sig .tc .vmem S1x8192x2 .i32) (harg3 : arg3.IsWhole) (arg4 : Memref sig .tc .vmem S1x128x128 .i32) (harg4 : arg4.IsWhole) (arg5 : Memref sig .tc .vmem S128x128 .f32) (harg5 : arg5.IsWhole) (hc0 : cond0_0 i) (hc1 : ¬cond0_1 i) (x0 : Vec F S1x8192x2 .f32) :
    sout0_A_0 c i arg2 harg2 arg3 harg3 arg4 harg4 arg5 harg5 hc0 hc1 x0 = k0_pay4 (F := F) (View.readAt (Elt F) arg2.view (Rect.unit (s := S1x8192x2) (k0_off1 trip1) S1x4096x2.size (Facts₀.k0_off1_inb trip1)).toLoadRect (harg2.unread x0)) (k0_pay4 (F := F) (View.readAt (Elt F) arg2.view (Rect.unit (s := S1x8192x2) (k0_off1 trip0) S1x4096x2.size (Facts₀.k0_off1_inb trip0)).toLoadRect (harg2.unread x0)) (k0_pay1 (F := F))) := by
  unfold sout0_A_0
  have e : (kernelRun0_A c i arg2 harg2 arg3 harg3 arg4 harg4 arg5 harg5 hc0 hc1 x0).2.2.1
      = (pb_k0_t1 (F := F) Variants.none c none i arg2 harg2 arg3 harg3 arg4 harg4 arg5 harg5 (harg2.unread x0) arg3.view.junk
          (arg5.view.writes (Elt F) arg5.view.junk [⟨Rect.unit (s := S128x128) ![0, 0] S128x128.size Facts₀.inb_S128x128_S128x128_0_0, k0_pay1 (F := F)⟩]) (Scf.trips k0_t1_loop.lb k0_t1_loop.ub k0_t1_loop.st)).2
        ++ [⟨Rect.unit (s := S128x128) ![0, 0] S128x128.size Facts₀.inb_S128x128_S128x128_0_0, k0_pay1 (F := F)⟩] := by
    unfold kernelRun0_A; sl_unfold_run_names; rfl
  rw [e, pb_scratch_read_two_append, read_writes_cons_whole _ _ zero2]

/-- After any later tile: the two chunks' histograms added to what the tile before left. -/
theorem scratch_B (c : Dev nD) (i : grid0.Coords) (arg2 : Memref sig .tc .vmem S1x8192x2 .f32) (harg2 : arg2.IsWhole) (arg3 : Memref sig .tc .vmem S1x8192x2 .i32) (harg3 : arg3.IsWhole) (arg4 : Memref sig .tc .vmem S1x128x128 .i32) (harg4 : arg4.IsWhole) (arg5 : Memref sig .tc .vmem S128x128 .f32) (harg5 : arg5.IsWhole) (hc0 : ¬cond0_0 i) (hc1 : ¬cond0_1 i) (x0 : Vec F S1x8192x2 .f32) (xs0 : Vec F S128x128 .f32) :
    sout0_B_0 c i arg2 harg2 arg3 harg3 arg4 harg4 arg5 harg5 hc0 hc1 x0 xs0 = k0_pay4 (F := F) (View.readAt (Elt F) arg2.view (Rect.unit (s := S1x8192x2) (k0_off1 trip1) S1x4096x2.size (Facts₀.k0_off1_inb trip1)).toLoadRect (harg2.unread x0)) (k0_pay4 (F := F) (View.readAt (Elt F) arg2.view (Rect.unit (s := S1x8192x2) (k0_off1 trip0) S1x4096x2.size (Facts₀.k0_off1_inb trip0)).toLoadRect (harg2.unread x0)) xs0) := by
  unfold sout0_B_0
  have e : (kernelRun0_B c i arg2 harg2 arg3 harg3 arg4 harg4 arg5 harg5 hc0 hc1 x0 xs0).2.2.1
      = (pb_k0_t1 (F := F) Variants.none c none i arg2 harg2 arg3 harg3 arg4 harg4 arg5 harg5 (harg2.unread x0) arg3.view.junk (harg5.unread xs0) (Scf.trips k0_t1_loop.lb k0_t1_loop.ub k0_t1_loop.st)).2 := by
    unfold kernelRun0_B; rfl
  rw [e, pb_scratch_read_two, read_unread_whole]

/-- After a batch's last tile, the same: the two chunks' histograms added to what the tile before left. -/
theorem scratch_C (c : Dev nD) (i : grid0.Coords) (arg2 : Memref sig .tc .vmem S1x8192x2 .f32) (harg2 : arg2.IsWhole) (arg3 : Memref sig .tc .vmem S1x8192x2 .i32) (harg3 : arg3.IsWhole) (arg4 : Memref sig .tc .vmem S1x128x128 .i32) (harg4 : arg4.IsWhole) (arg5 : Memref sig .tc .vmem S128x128 .f32) (harg5 : arg5.IsWhole) (hc0 : ¬cond0_0 i) (hc1 : cond0_1 i) (x0 : Vec F S1x8192x2 .f32) (xs0 : Vec F S128x128 .f32) :
    sout0_C_0 c i arg2 harg2 arg3 harg3 arg4 harg4 arg5 harg5 hc0 hc1 x0 xs0 = k0_pay4 (F := F) (View.readAt (Elt F) arg2.view (Rect.unit (s := S1x8192x2) (k0_off1 trip1) S1x4096x2.size (Facts₀.k0_off1_inb trip1)).toLoadRect (harg2.unread x0)) (k0_pay4 (F := F) (View.readAt (Elt F) arg2.view (Rect.unit (s := S1x8192x2) (k0_off1 trip0) S1x4096x2.size (Facts₀.k0_off1_inb trip0)).toLoadRect (harg2.unread x0)) xs0) := by
  unfold sout0_C_0
  have e : (kernelRun0_C c i arg2 harg2 arg3 harg3 arg4 harg4 arg5 harg5 hc0 hc1 x0 xs0).2.2.1
      = (pb_k0_t1 (F := F) Variants.none c none i arg2 harg2 arg3 harg3 arg4 harg4 arg5 harg5 (harg2.unread x0) arg3.view.junk (harg5.unread xs0) (Scf.trips k0_t1_loop.lb k0_t1_loop.ub k0_t1_loop.st)).2 := by
    unfold kernelRun0_C; rfl
  rw [e, pb_scratch_read_two, read_unread_whole]

/-! ## Output 2's buffer -/

/-- On a batch's last tile output 2's buffer holds the running block, as that tile leaves it, converted to words. -/
theorem out2_C (c : Dev nD) (i : grid0.Coords) (arg2 : Memref sig .tc .vmem S1x8192x2 .f32) (harg2 : arg2.IsWhole) (arg3 : Memref sig .tc .vmem S1x8192x2 .i32) (harg3 : arg3.IsWhole) (arg4 : Memref sig .tc .vmem S1x128x128 .i32) (harg4 : arg4.IsWhole) (arg5 : Memref sig .tc .vmem S128x128 .f32) (harg5 : arg5.IsWhole) (hc0 : ¬cond0_0 i) (hc1 : cond0_1 i) (x0 : Vec F S1x8192x2 .f32) (xs0 : Vec F S128x128 .f32) :
    out0_C_2 c i arg2 harg2 arg3 harg3 arg4 harg4 arg5 harg5 hc0 hc1 x0 xs0
      = k0_pay5 (F := F) (k0_pay4 (F := F) (View.readAt (Elt F) arg2.view (Rect.unit (s := S1x8192x2) (k0_off1 trip1) S1x4096x2.size (Facts₀.k0_off1_inb trip1)).toLoadRect (harg2.unread x0)) (k0_pay4 (F := F) (View.readAt (Elt F) arg2.view (Rect.unit (s := S1x8192x2) (k0_off1 trip0) S1x4096x2.size (Facts₀.k0_off1_inb trip0)).toLoadRect (harg2.unread x0)) xs0)) := by
  unfold out0_C_2
  have e : (kernelRun0_C c i arg2 harg2 arg3 harg3 arg4 harg4 arg5 harg5 hc0 hc1 x0 xs0).2.1
      = [⟨Rect.unit (s := S1x128x128) ![0, 0, 0] S1x128x128.size Facts₀.inb_S1x128x128_S1x128x128_0_0_0, k0_pay5 (F := F) (View.readAt (Elt F) arg5.view (Rect.unit (s := S128x128) ![0, 0] S128x128.size Facts₀.inb_S128x128_S128x128_0_0).toLoadRect
          (arg5.view.writes (Elt F) (harg5.unread xs0)
            (pb_k0_t1 (F := F) Variants.none c none i arg2 harg2 arg3 harg3 arg4 harg4 arg5 harg5 (harg2.unread x0) arg3.view.junk (harg5.unread xs0) (Scf.trips k0_t1_loop.lb k0_t1_loop.ub k0_t1_loop.st)).2))⟩] := by
    unfold kernelRun0_C; sl_unfold_run_names; rfl
  rw [e, read_writes_cons_whole _ _ zero3, loaded_scratch_read, pb_scratch_read_two, read_unread_whole]

end Cert.Hist

end
-- ==== Proof.ChunkHist.lean ====
/-
  One chunk of 4096 points added to the 128 × 128 block of counts, read at an index at the ideal
  values.

  The body builds two 4096 × 128 matrices of zeros and ones: Y[r, h] is 1 exactly when the second
  coordinate of point r quantizes to h, and X[r, w] is 1 exactly when its first coordinate
  quantizes to w (each is the comparison of a column of the quantized chunk, repeated along the
  rows' 128 places, with the place's own number).  The product contracts the points' axis of both:
  entry (h, w) is ∑ r, Y[r, h] · X[r, w].  A product of two such indicators is the indicator of the
  conjunction, and a sum of indicators is the number of points at which the condition holds.  So
  entry (h, w) of the block grows by the number of the chunk's points that fall into cell (h, w).
-/
import proofs.«174894_j446676598908_2_alg».proof.Proof.ChunkQuant
import Idealize.ShloMosaic.Lib.Pipeline.Value
import Idealize.ShloMosaic.PureOps.Ideal.Laws

noncomputable section

namespace Cert.Hist

open Idealize.ShloMosaic Idealize.ShloMosaic.ValueIdx Idealize.SL.Sem
open Cert.KernelIdeal Cert.KernelIdeal.Gen

variable [Cert.KernelIdeal.Facts]

/-- The product that contracts the first axis (the points) of both 4096 × 128 operands, into a zero
    block: entry (h, w) is the sum over the points r of A[r, h] · B[r, w]. -/
theorem chunk_matmul_apply (A B : FVec Ideal S4096x128 .bf16) (h w : Fin 128) :
    matmul dot_S4096x128_S4096x128_S128x128_0_0_1_1_n_n none A B (constant (F := Ideal) S128x128 .f32 0x00000000#32) (ix2 h w)
      = ∑ r : Fin 4096, A (ix2 r h) * B (ix2 r w) := by
  show FloatOps.matmul _ none A B (constant (F := Ideal) S128x128 .f32 0x00000000#32) (ix2 h w) = _
  rw [Ideal.matmul_constant_zero_apply,
    ← Equiv.sum_comp (contrEquiv1 dot_S4096x128_S4096x128_S128x128_0_0_1_1_n_n 4096 rfl rfl).symm]
  refine Finset.sum_congr rfl fun r _ => ?_
  have c2 := contrEquiv1_symm_val dot_S4096x128_S4096x128_S128x128_0_0_1_1_n_n 4096 rfl rfl r
  have l2 : dot_S4096x128_S4096x128_S128x128_0_0_1_1_n_n.lhsIdx (ix2 h w) ((contrEquiv1 _ 4096 rfl rfl).symm r) = ix2 r h := by
    funext ax; apply Fin.ext
    match ax with
    | ⟨0, _⟩ => simp [DotDims.lhsIdx, dot_S4096x128_S4096x128_S128x128_0_0_1_1_n_n]; exact c2
    | ⟨1, _⟩ => simp [DotDims.lhsIdx, dot_S4096x128_S4096x128_S128x128_0_0_1_1_n_n]; rfl
  have r2 : dot_S4096x128_S4096x128_S128x128_0_0_1_1_n_n.rhsIdx (ix2 h w) ((contrEquiv1 _ 4096 rfl rfl).symm r) = ix2 r w := by
    funext ax; apply Fin.ext
    match ax with
    | ⟨0, _⟩ => simp [DotDims.rhsIdx, dot_S4096x128_S4096x128_S128x128_0_0_1_1_n_n]; exact c2
    | ⟨1, _⟩ => simp [DotDims.rhsIdx, dot_S4096x128_S4096x128_S128x128_0_0_1_1_n_n]; rfl
  rw [l2, r2]

/-- The comparison of two words, widened to 32 bits and converted to a real, is the indicator of
    their equality. -/
theorem chunk_onehot_word (a b : BitVec 32) :
    (FloatOps.sitofp (F := Ideal) .f32 ((IntOp.cmpi .eq a b).setWidth 32) : EReal) = if a = b then 1 else 0 := by
  show (((((IntOp.cmpi .eq a b).setWidth 32).toInt : ℤ) : ℝ) : EReal) = _
  by_cases h : a = b
  · have hb : (a == b) = true := by simp [h]
    rw [if_pos h]; simp [IntOp.cmpi, hb]
  · have hb : (a == b) = false := by simp [h]
    rw [if_neg h]; simp [IntOp.cmpi, hb]

/-- Column c of a 4096 × 2 array, repeated along 128 places: entry (r, k) is the array's (r, c). -/
theorem chunk_col_apply (q : IVec S4096x2 32) (o : Nat) (c : Fin 2) (hc : c.val = o) (hs : S4096x2.Slices ![0, o] S4096x1)
    (hb : S4096x1.Broadcasts S4096x128) (r : Fin 4096) (k : Fin 128) :
    broadcastTo S4096x128 (extractStridedSlice S4096x1 ![0, o] q hs) hb (ix2 r k) = q (ix2 r c) := by
  refine (broadcastTo_apply _ hb (ix2 r k) (ix2 r (0 : Fin 1)) fun a => ?_).trans ?_
  · match a with
    | ⟨0, _⟩ => rfl
    | ⟨1, _⟩ => rfl
  · refine extractStridedSlice_apply ![0, o] q hs (ix2 r (0 : Fin 1)) (ix2 r c) fun a => ?_
    match a with
    | ⟨0, _⟩ => show r.val = 0 + r.val; omega
    | ⟨1, _⟩ => show c.val = o + 0; omega

/-- The product of two indicators is the indicator of the conjunction. -/
theorem chunk_ind_mul (A B : Prop) [Decidable A] [Decidable B] :
    (if A then (1 : EReal) else 0) * (if B then (1 : EReal) else 0) = if A ∧ B then 1 else 0 := by
  by_cases hA : A <;> by_cases hB : B <;> simp [hA, hB]

/-- A sum of indicators over a finite set is the number of its elements with the property. -/
theorem chunk_sum_ind_finset {ι : Type} [DecidableEq ι] (p : ι → Prop) [DecidablePred p] (s : Finset ι) :
    ∑ r ∈ s, (if p r then (1 : EReal) else 0) = ((((s.filter p).card : ℕ) : ℝ) : EReal) := by
  induction s using Finset.induction_on with
  | empty => simp
  | insert a s ha ih =>
    rw [Finset.sum_insert ha, ih, Finset.filter_insert]
    by_cases h : p a
    · rw [if_pos h, if_pos h, Finset.card_insert_of_notMem (by simp [ha]), Nat.cast_succ, EReal.coe_add, EReal.coe_one, add_comm]
    · rw [if_neg h, if_neg h, zero_add]

/-- Over all of Fin n. -/
theorem chunk_sum_ind {n : Nat} (p : Fin n → Prop) [DecidablePred p] :
    ∑ r : Fin n, (if p r then (1 : EReal) else 0) = ((((Finset.univ.filter p).card : ℕ) : ℝ) : EReal) :=
  chunk_sum_ind_finset p Finset.univ

/-- One chunk of 4096 points added to the running 128 × 128 block: entry (h, w) grows by the number
    of the chunk's points whose second coordinate quantizes to h and first to w. -/
theorem pay4_apply (x : Vec Ideal S1x4096x2 .f32) (acc : Vec Ideal S128x128 .f32) (h w : Fin 128) :
    k0_pay4 (F := Ideal) x acc (ix2 h w) = acc (ix2 h w) + ((((Finset.univ.filter fun r : Fin 4096 =>
        Ideal.fptosi 32 (x (ix3 (0 : Fin 1) r (1 : Fin 2)) * c127) = BitVec.ofNat 32 h.val
        ∧ Ideal.fptosi 32 (x (ix3 (0 : Fin 1) r (0 : Fin 2)) * c127) = BitVec.ofNat 32 w.val).card : ℕ) : ℝ) : EReal) := by
  unfold k0_pay4
  rw [shapeCast_self, addf_apply]
  refine congrArg (acc (ix2 h w) + ·) ?_
  refine (chunk_matmul_apply _ _ h w).trans ?_
  rw [← chunk_sum_ind]
  refine Finset.sum_congr rfl fun r _ => ?_
  rw [truncf_apply, truncf_apply, sitofp_apply, sitofp_apply, extui_apply, extui_apply]
  show FloatOps.sitofp (F := Ideal) .f32 ((IntOp.cmpi .eq (broadcastTo S4096x128 _ _ (ix2 r h)) (iota Kind.tc S4096x128 32 [1] _ (ix2 r h))).setWidth 32)
      * FloatOps.sitofp (F := Ideal) .f32 ((IntOp.cmpi .eq (broadcastTo S4096x128 _ _ (ix2 r w)) (iota Kind.tc S4096x128 32 [1] _ (ix2 r w))).setWidth 32) = _
  rw [chunk_col_apply _ 1 (1 : Fin 2) rfl, chunk_col_apply _ 0 (0 : Fin 2) rfl, iota_single_apply, iota_single_apply,
    chunk_onehot_word, chunk_onehot_word, pay2_apply, pay2_apply, chunk_ind_mul]

end Cert.Hist

end
-- ==== Proof.KernelVox.lean ====
/-
  The second output of the kernel: the histograms of the quantized points.

  The grid has 16 × 128 points; point t works on tile t % 128 (8192 points) of batch t / 128.  A running
  128 × 128 block is set to zero at a batch's first tile, and every tile adds to it, chunk by chunk, the number of
  its points that fall into each cell.  The input block at point t is the array at (t / 128, 8192 (t % 128) + r, a),
  so by induction over the grid points the running block after a batch's last tile holds, as real numbers, the
  batch's counts.  There the block is converted to 32-bit words (a count is at most 1048576, below 2 ^ 31, so the
  conversion is exact) and written back as block (t / 128, 0, 0) of the second output.  These blocks cover the
  output array, so after the run it is the array of all counts.
-/
import proofs.«174894_j446676598908_2_alg».proof.Proof.GenP.KernelIdeal.Value
import proofs.«174894_j446676598908_2_alg».proof.Proof.KernelCases
import proofs.«174894_j446676598908_2_alg».proof.Proof.TripChunk
import proofs.«174894_j446676598908_2_alg».proof.Proof.ChunkQuant
import proofs.«174894_j446676598908_2_alg».proof.Proof.ChunkHist
import proofs.«174894_j446676598908_2_alg».proof.Proof.ScratchSteps
import proofs.«174894_j446676598908_2_alg».proof.Proof.BlockGeometry
import proofs.«174894_j446676598908_2_alg».proof.Proof.HistSpec

set_option maxRecDepth 16384

noncomputable section

namespace Cert.Hist

open Cert.KernelIdeal Cert.KernelIdeal.Gen Cert.KernelIdeal.GenP Cert.KernelIdeal.ValueP
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (c : Dev nD)

/-- A position below 2048 is a grid point. -/
theorem lt_N {n : ℕ} (hn : n < 2048) : n < cfg0.N := lt_of_lt_of_eq hn N_0.symm

/-- The input block at grid point t, entry (0, r, a): the array at (t / 128, 8192 (t % 128) + r, a). -/
theorem iblk_apply (t : Fin 2048) (r : Fin 8192) (a : Fin 2) :
    iblk m c 0 ⟨t.val, lt_N t.isLt⟩ (ix3 (0 : Fin 1) r a)
      = V m c main_arg0 (ix3 ⟨t.val / 128, by have := t.isLt; omega⟩ ⟨8192 * (t.val % 128) + r.val, by have := r.isLt; omega⟩ a) := by
  unfold iblk
  rw [View.read_apply]
  obtain ⟨e0, e1, e2⟩ := emb0_val ⟨t.val, lt_N t.isLt⟩ (ix3 (0 : Fin 1) r a)
  show V m c main_arg0 _ = _
  refine congrArg (V m c main_arg0) (funext fun d => ?_)
  match d with
  | ⟨0, _⟩ => exact Fin.ext e0
  | ⟨1, _⟩ => exact Fin.ext e1
  | ⟨2, _⟩ => exact Fin.ext e2

/-- After a batch's first tile the running block is the two chunks' histograms added to the zero block. -/
theorem sc_first (n : ℕ) (hn : n < 2048) (h0 : n % 128 = 0) :
    (outsAt0 m c n (lt_N hn)).2.2
      = k0_pay4 (F := Ideal) (chunk 1 (iblk m c 0 ⟨n, lt_N hn⟩))
          (k0_pay4 (F := Ideal) (chunk 0 (iblk m c 0 ⟨n, lt_N hn⟩)) (k0_pay1 (F := Ideal))) := by
  have h1 : ¬ n % 128 = 127 := by omega
  have e := congrArg (fun p => p.2.2) (outsAt0_A m c ⟨n, lt_N hn⟩ h0 h1)
  refine e.trans ?_
  refine (scratch_A (F := Ideal) c (grid0.coords ⟨n, lt_N hn⟩) (ms0_0 ⟨n, lt_N hn⟩) (hs0_0 ⟨n, lt_N hn⟩) (ms0_1 ⟨n, lt_N hn⟩) (hs0_1 ⟨n, lt_N hn⟩) (ms0_2 ⟨n, lt_N hn⟩) (hs0_2 ⟨n, lt_N hn⟩) scM0_0 (Memref.isWhole_whole _) ((hcond0_0 ⟨n, lt_N hn⟩).mpr h0) (fun h => h1 ((hcond0_1 ⟨n, lt_N hn⟩).mp h)) (iblk m c 0 ⟨n, lt_N hn⟩)).trans ?_
  rw [loaded_chunk_eq (ms0_0 ⟨n, lt_N hn⟩) (hs0_0 ⟨n, lt_N hn⟩) (iblk m c 0 ⟨n, lt_N hn⟩) trip1,
    loaded_chunk_eq (ms0_0 ⟨n, lt_N hn⟩) (hs0_0 ⟨n, lt_N hn⟩) (iblk m c 0 ⟨n, lt_N hn⟩) trip0]
  rfl

/-- After any later tile it is the two chunks' histograms added to what the tile before left. -/
theorem sc_next (n : ℕ) (hn : n < 2048) (h0 : ¬ n % 128 = 0) :
    (outsAt0 m c n (lt_N hn)).2.2
      = k0_pay4 (F := Ideal) (chunk 1 (iblk m c 0 ⟨n, lt_N hn⟩))
          (k0_pay4 (F := Ideal) (chunk 0 (iblk m c 0 ⟨n, lt_N hn⟩)) (outsAt0 m c (n - 1) (lt_N (by omega))).2.2) := by
  by_cases h1 : n % 128 = 127
  · have e := congrArg (fun p => p.2.2) (outsAt0_C m c ⟨n, lt_N hn⟩ h0 h1)
    refine e.trans ?_
    refine (scratch_C (F := Ideal) c (grid0.coords ⟨n, lt_N hn⟩) (ms0_0 ⟨n, lt_N hn⟩) (hs0_0 ⟨n, lt_N hn⟩) (ms0_1 ⟨n, lt_N hn⟩) (hs0_1 ⟨n, lt_N hn⟩) (ms0_2 ⟨n, lt_N hn⟩) (hs0_2 ⟨n, lt_N hn⟩) scM0_0 (Memref.isWhole_whole _) (fun h => h0 ((hcond0_0 ⟨n, lt_N hn⟩).mp h)) ((hcond0_1 ⟨n, lt_N hn⟩).mpr h1) (iblk m c 0 ⟨n, lt_N hn⟩) (outsAt0 m c (n - 1) (lt_N (by omega))).2.2).trans ?_
    rw [loaded_chunk_eq (ms0_0 ⟨n, lt_N hn⟩) (hs0_0 ⟨n, lt_N hn⟩) (iblk m c 0 ⟨n, lt_N hn⟩) trip1,
      loaded_chunk_eq (ms0_0 ⟨n, lt_N hn⟩) (hs0_0 ⟨n, lt_N hn⟩) (iblk m c 0 ⟨n, lt_N hn⟩) trip0]
    rfl
  · have e := congrArg (fun p => p.2.2) (outsAt0_B m c ⟨n, lt_N hn⟩ h0 h1)
    refine e.trans ?_
    refine (scratch_B (F := Ideal) c (grid0.coords ⟨n, lt_N hn⟩) (ms0_0 ⟨n, lt_N hn⟩) (hs0_0 ⟨n, lt_N hn⟩) (ms0_1 ⟨n, lt_N hn⟩) (hs0_1 ⟨n, lt_N hn⟩) (ms0_2 ⟨n, lt_N hn⟩) (hs0_2 ⟨n, lt_N hn⟩) scM0_0 (Memref.isWhole_whole _) (fun h => h0 ((hcond0_0 ⟨n, lt_N hn⟩).mp h)) (fun h => h1 ((hcond0_1 ⟨n, lt_N hn⟩).mp h)) (iblk m c 0 ⟨n, lt_N hn⟩) (outsAt0 m c (n - 1) (lt_N (by omega))).2.2).trans ?_
    rw [loaded_chunk_eq (ms0_0 ⟨n, lt_N hn⟩) (hs0_0 ⟨n, lt_N hn⟩) (iblk m c 0 ⟨n, lt_N hn⟩) trip1,
      loaded_chunk_eq (ms0_0 ⟨n, lt_N hn⟩) (hs0_0 ⟨n, lt_N hn⟩) (iblk m c 0 ⟨n, lt_N hn⟩) trip0]
    rfl

/-- The running block after a batch's last tile holds the batch's counts. -/
theorem scratch_counts (t : Fin cfg0.N) (hl : t.val % 128 = 127) (h w : Fin 128) :
    (outsAt0 m c t.val t.isLt).2.2 (ix2 h w)
      = (((count (quant (V m c main_arg0)) ⟨t.val / 128, by have := lt_of_lt_of_eq t.isLt N_0; omega⟩ h w : ℕ) : ℝ) : EReal) :=
  scratch_last (V m c main_arg0) (fun x acc => k0_pay4 (F := Ideal) x acc) pay4_apply (k0_pay1 (F := Ideal)) pay1_apply
    (fun t => iblk m c 0 ⟨t.val, lt_N t.isLt⟩) (iblk_apply m c)
    (fun n hn => (outsAt0 m c n (lt_N hn)).2.2)
    (fun n hn h0 => sc_first m c n hn h0) (fun n hn h0 => sc_next m c n hn h0)
    t.val (lt_of_lt_of_eq t.isLt N_0) hl h w

/-- What the last tile of a batch writes back to the second output: the batch's histogram, as the block of the array
    of all histograms. -/
theorem flushed2_eq (t : Fin cfg0.N) (hl : t.val % 128 = 127) :
    (dats m 0 c).flushed 2 t = ((cfg0.win 2).blk t).view.read (Elt Ideal) (hist (quant (V m c main_arg0))) := by
  have h0 : ¬ t.val % 128 = 0 := by omega
  have hX := ((congrArg (fun p => p.2.2) (outsAt0_C m c t h0 hl)).trans
    (scratch_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr hl) (iblk m c 0 t) (outsAt0 m c (t.val - 1) (Nat.lt_of_le_of_lt (Nat.sub_le _ _) t.isLt)).2.2)).symm
  rw [flushed2_C m c t h0 hl,
    out2_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr hl) (iblk m c 0 t) (outsAt0 m c (t.val - 1) (Nat.lt_of_le_of_lt (Nat.sub_le _ _) t.isLt)).2.2,
    hX]
  funext j
  obtain ⟨z, h, w, rfl⟩ : ∃ (z : Fin 1) (h w : Fin 128), j = ix3 z h w := ⟨j 0, j 1, j 2, eq_ix3 j⟩
  obtain rfl : z = 0 := Subsingleton.elim _ _
  obtain ⟨e0, e1, e2⟩ := emb2_val t (ix3 (0 : Fin 1) h w)
  show k0_pay5 (F := Ideal) (outsAt0 m c t.val t.isLt).2.2 (ix3 (0 : Fin 1) h w) = _
  rw [pay5_apply, scratch_counts m c t hl h w,
    fptosi_natCast _ (lt_of_le_of_lt (count_le _ _ _ _) (by norm_num)), View.read_apply]
  show _ = hist (quant (V m c main_arg0)) (((cfg0.win 2).blk t).view.emb (ix3 (0 : Fin 1) h w))
  unfold hist
  refine congrArg (BitVec.ofNat 32) ?_
  exact congr (congr (congrArg (count (quant (V m c main_arg0))) (Fin.ext e0.symm)) (Fin.ext e1.symm)) (Fin.ext e2.symm)

/-- The second output after the run: the histograms of the quantized input. -/
theorem final2 : (dats m 0 c).arrAt 2 cfg0.N = hist (quant (m ((c : Thread nD τ).loc main_arg0))) :=
  (dats m 0 c).arrAt_eq_of_cover 2 _ (fun t hf => flushed2_eq m c t ((flush2_iff t).mp hf)) cover2

end Cert.Hist

end
-- ==== Proof.KernelValue.lean ====
/-
  The kernel's run, with both results named.

  After the run, output 1's array is the quantized points and output 2's array is the histograms, both as
  functions of the points' array the run started from, which ends unchanged.
-/
import proofs.«174894_j446676598908_2_alg».proof.Proof.GenP.KernelIdeal.Value
import proofs.«174894_j446676598908_2_alg».proof.Proof.KernelQuant
import proofs.«174894_j446676598908_2_alg».proof.Proof.KernelVox

noncomputable section

namespace Cert.Hist

open Cert.KernelIdeal Cert.KernelIdeal.Gen Cert.KernelIdeal.GenP Cert.KernelIdeal.ValueP
open Idealize.ShloMosaic Idealize.ShloMosaic.TcCoe Idealize.SL.Sem

variable [Cert.KernelIdeal.Facts]

/-- Every execution of the kernel over the extended reals ends with the quantized points in its first result, the
    histograms in its second, and its argument as it was. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v0_0) = quant (m ((c : Thread nD τ).loc main_arg0))
      ∧ r.2.mem ((c : Thread nD τ).loc main_v0_1) = hist (quant (m ((c : Thread nD τ).loc main_arg0)))
      ∧ r.2.mem ((c : Thread nD τ).loc main_arg0) = m ((c : Thread nD τ).loc main_arg0) :=
  (θ_run defs _ _).mono
    (fun r h c => ⟨(h c).1.trans (final1 m c), (h c).2.1.trans (final2 m c), (h c).2.2⟩)
    (run_blocks m ρ)

end Cert.Hist

end
-- ==== Proof.lean ====
/-
  The kernel and the reference compute the same quantized points and the same histograms.

  Input: xy, 16 batches of 1048576 points with two coordinates. Both programs return
    q   = each coordinate times 127, truncated toward zero to a 32-bit word, and
    vox = per batch a 128 × 128 array: vox[b, h, w] is the number of points of batch b whose second
          coordinate quantizes to h and whose first quantizes to w.
  The kernel walks each batch in 128 tiles of 8192 points, two chunks of 4096 per tile: for a chunk it forms the
  0/1 matrices Y[r, h] = [q_y(r) = h] and X[r, w] = [q_x(r) = w] against the numbers 0 … 127 and adds Yᵀ·X — whose
  entry (h, w) is the number of the chunk's points in cell (h, w) — to a running 128 × 128 block that starts at
  zero on a batch's first tile and is converted to words after its last. The reference adds one at the flat
  position q_x + 128·q_y + 16384·b of an array of 16·128·128 cells. On the extended reals every sum here is a
  sum of natural numbers, so nothing depends on the order of the additions, and a batch holds 1048576 < 2³¹
  points, so the conversion of a count to a word is exact.
  The two histograms agree when every quantized coordinate is a coordinate of the grid (0 ≤ q < 128): then the
  flat position of a point determines its batch and its cell, and conversely (three digits in base 128, 128, 16).
  That is the precondition's second conjunct; without it a point with q_x = 254, q_y = 0 is counted by the
  reference in cell (1, 126) and by the kernel nowhere.

  The modules: HistSpec (the specification), PreGrid (the precondition gives the grid condition), RefWords /
  RefCell / RefHist with LibScatter / LibScatterCount / LibSumDigits (the reference is the specification),
  ChunkQuant / ChunkHist (the kernel body's arithmetic at an index), TripPieces / TripChunk (what one trip of
  the body's loop stores), CountSteps / ScratchSteps (counting chunk by chunk, the induction over the tiles),
  BlockGeometry (which indices each block holds), WholeStore, KernelCases and KernelValue (the kernel is the
  specification).
-/
import proofs.«174894_j446676598908_2_alg».proof.Defs
import proofs.«174894_j446676598908_2_alg».proof.Proof.Gen.Kernel
import proofs.«174894_j446676598908_2_alg».proof.Proof.Gen.KernelIdeal
import proofs.«174894_j446676598908_2_alg».proof.Proof.Gen.ReferenceIdeal
import proofs.«174894_j446676598908_2_alg».proof.Proof.Gen.Pre_finite_inputs
import proofs.«174894_j446676598908_2_alg».proof.Proof.Gen.ReferenceIdeal.Run
import proofs.«174894_j446676598908_2_alg».proof.Proof.Gen.ReferenceIdeal.Read
import proofs.«174894_j446676598908_2_alg».proof.Proof.GenP.Kernel.Frame
import proofs.«174894_j446676598908_2_alg».proof.Proof.GenP.KernelIdeal.Frame
import proofs.«174894_j446676598908_2_alg».proof.Proof.PreGrid
import proofs.«174894_j446676598908_2_alg».proof.Proof.RefHist
import proofs.«174894_j446676598908_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its argument as it was. -/
theorem frame_kernel [Cert.Kernel.Facts] [Cert.Pre_finite_inputs.Facts] : Cert.frame_Kernel :=
  fun m ρ _ => Cert.Kernel.GenP.frame m ρ

/-- So does the kernel read over the extended reals. -/
theorem frame_kernelIdeal [Cert.KernelIdeal.Facts] [Cert.Pre_finite_inputs.Facts] : Cert.frame_KernelIdeal :=
  fun m ρ _ => Cert.KernelIdeal.GenP.frame m ρ

/-- And the reference: its run, with the results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- From memories agreeing on xy, both programs end with the quantized points and the histograms of xy. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.Hist.quant (m ((c.tc : Thread Cert.KernelIdeal.nD Cert.KernelIdeal.τ).loc Cert.KernelIdeal.main_arg0)),
    fun c => Cert.Hist.hist (Cert.Hist.quant (m ((c.tc : Thread Cert.KernelIdeal.nD Cert.KernelIdeal.τ).loc Cert.KernelIdeal.main_arg0))),
    Cert.Hist.kernel_run m ρ, ?_⟩
  refine (θ_run Cert.ReferenceIdeal.defs _ _).mono (fun _ h c => ⟨?_, ?_, (h c).2.2⟩)
    (Cert.ReferenceIdeal.Value.run (F := Ideal) m' ρ')
  · refine (h c).1.trans ((Cert.ReferenceIdeal.Read.val_main_v2_eq _).trans ?_)
    rw [hagree c]
    exact Cert.Hist.ref_quant _
  · refine (h c).2.1.trans ((Cert.ReferenceIdeal.Read.val_main_v27_eq _).trans ?_)
    rw [hagree c]
    exact Cert.Hist.ref_hist _ (Cert.Hist.inGrid_of_pre _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
